-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x128 : Shape := ⟨2, ![1, 128]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S1x128 .f32) (main_arg9 : FVec F S1 .f32) (main_v33 : IVec S_ 1) : IVec S_ 1 :=
  let main_v34 : FVec F S1x128 .f32 := Host.absf main_arg8
  let main_cst_12 : FVec F S_ .f32 := constant S_ .f32 0x7F800000#32
  let main_v35 : FVec F S1x128 .f32 := broadcastInDim S1x128 ![] bcast_S_S1x128 main_cst_12
  let main_v36 : IVec S1x128 1 := cmpf .olt main_v34 main_v35
  let main_c_13 : IVec S_ 1 := constantI S_ 1 1#1
  let main_v37 : IVec S_ 1 := (fun x v => Host.reduce IntOp.andi x v reducesTo_S1x128_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S64x64 .f32) (main_arg6 : FVec F S64 .f32) (main_arg7 : FVec F S64x64 .f32) (main_arg8 : FVec F S1x128 .f32) (main_arg9 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_v33

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64x64 .f32) (main_arg6 : FVec F S64 .f32) (main_arg7 : FVec F S64x64 .f32) (main_arg8 : FVec F S1x128 .f32) (main_arg9 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x128 : Shape := ⟨2, ![1, 128]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S1x64 : Shape := ⟨2, ![1, 64]⟩
abbrev S5000x64 : Shape := ⟨2, ![5000, 64]⟩
abbrev S5000x1 : Shape := ⟨2, ![5000, 1]⟩
abbrev S64x1 : Shape := ⟨2, ![64, 1]⟩
abbrev S64x2 : Shape := ⟨2, ![64, 2]⟩
abbrev S100000x2 : Shape := ⟨2, ![100000, 2]⟩
abbrev S5000x2 : Shape := ⟨2, ![5000, 2]⟩

abbrev nBuf : Space → Nat
  | .hbm => 91
  | .vmem => 23
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S1x128, .f32⟩
  | .hbm, ⟨9, _⟩ => ⟨S1, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S_, .i32⟩
  | .hbm, ⟨17, _⟩ => ⟨S100000, .i32⟩
  | .hbm, ⟨18, _⟩ => ⟨S1600000x1, .i32⟩
  | .hbm, ⟨19, _⟩ => ⟨S100000, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x64, .f32⟩
  | .hbm, ⟨37, _⟩ => ⟨S_, .f32⟩
  | .hbm, ⟨38, _⟩ => ⟨S100000x64, .f32⟩
  | .hbm, ⟨39, _⟩ => ⟨S1600000x1, .i32⟩
  | .hbm, ⟨40, _⟩ => ⟨S100000x64, .f32⟩
  | .hbm, ⟨41, _⟩ => ⟨S1x64, .f32⟩
  | .hbm, ⟨42, _⟩ => ⟨S100000x64, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x64, .f32⟩
  | .hbm, ⟨52, _⟩ => ⟨S_, .f32⟩
  | .hbm, ⟨53, _⟩ => ⟨S100000x64, .f32⟩
  | .hbm, ⟨54, _⟩ => ⟨S1600000x1, .i32⟩
  | .hbm, ⟨55, _⟩ => ⟨S100000x64, .f32⟩
  | .hbm, ⟨56, _⟩ => ⟨S1x64, .f32⟩
  | .hbm, ⟨57, _⟩ => ⟨S64, .f32⟩
  | .hbm, ⟨58, _⟩ => ⟨S1x64, .f32⟩
  | .hbm, ⟨59, _⟩ => ⟨S64, .f32⟩
  | .hbm, ⟨60, _⟩ => ⟨S64x1, .f32⟩
  | .hbm, ⟨61, _⟩ => ⟨S64x1, .f32⟩
  | .hbm, ⟨62, _⟩ => ⟨S64x2, .f32⟩
  | .hbm, ⟨63, _⟩ => ⟨S1x64, .f32⟩
  | .hbm, ⟨64, _⟩ => ⟨S100000x2, .f32⟩
  | .hbm, ⟨65, _⟩ => ⟨S100000x1, .f32⟩
  | .hbm, ⟨66, _⟩ => ⟨S100000, .f32⟩
  | .hbm, ⟨67, _⟩ => ⟨S100000x1, .f32⟩
  | .hbm, ⟨68, _⟩ => ⟨S100000, .f32⟩
  | .hbm, ⟨69, _⟩ => ⟨S_, .i32⟩
  | .hbm, ⟨70, _⟩ => ⟨S1600000, .i32⟩
  | .hbm, ⟨71, _⟩ => ⟨S1600000, .i1⟩
  | .hbm, ⟨72, _⟩ => ⟨S_, .i32⟩
  | .hbm, ⟨73, _⟩ => ⟨S1600000, .i32⟩
  | .hbm, ⟨74, _⟩ => ⟨S1600000, .i32⟩
  | .hbm, ⟨75, _⟩ => ⟨S1600000, .i32⟩
  | .hbm, ⟨76, _⟩ => ⟨S1600000x1, .i32⟩
  | .hbm, ⟨77, _⟩ => ⟨S1600000, .f32⟩
  | .hbm, ⟨78, _⟩ => ⟨S_, .i32⟩
  | .hbm, ⟨79, _⟩ => ⟨S1600000, .i32⟩
  | .hbm, ⟨80, _⟩ => ⟨S1600000, .i1⟩
  | .hbm, ⟨81, _⟩ => ⟨S_, .i32⟩
  | .hbm, ⟨82, _⟩ => ⟨S1600000, .i32⟩
  | .hbm, ⟨83, _⟩ => ⟨S1600000, .i32⟩
  | .hbm, ⟨84, _⟩ => ⟨S1600000, .i32⟩
  | .hbm, ⟨85, _⟩ => ⟨S1600000x1, .i32⟩
  | .hbm, ⟨86, _⟩ => ⟨S1600000, .f32⟩
  | .hbm, ⟨87, _⟩ => ⟨S1600000, .f32⟩
  | .hbm, ⟨88, _⟩ => ⟨S_, .f32⟩
  | .hbm, ⟨89, _⟩ => ⟨S1600000, .f32⟩
  | .hbm, ⟨90, _⟩ => ⟨S1600000, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x1, .f32⟩
  | .local _ .vmem, ⟨5, _⟩ => ⟨S5000x1, .f32⟩
  | .local _ .vmem, ⟨6, _⟩ => ⟨S64x64, .f32⟩
  | .local _ .vmem, ⟨7, _⟩ => ⟨S1x64, .f32⟩
  | .local _ .vmem, ⟨8, _⟩ => ⟨S64x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x1, .f32⟩
  | .local _ .vmem, ⟨16, _⟩ => ⟨S5000x1, .f32⟩
  | .local _ .vmem, ⟨17, _⟩ => ⟨S64x64, .f32⟩
  | .local _ .vmem, ⟨18, _⟩ => ⟨S1x64, .f32⟩
  | .local _ .vmem, ⟨19, _⟩ => ⟨S64x64, .f32⟩
  | .local _ .vmem, ⟨20, _⟩ => ⟨S64x2, .f32⟩
  | .local _ .vmem, ⟨21, _⟩ => ⟨S5000x2, .f32⟩
  | .local _ .vmem, ⟨22, _⟩ => ⟨S5000x2, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_c_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c_2 : Ref sig .tc := ⟨.hbm, 28, rfl⟩
abbrev main_v14 : Ref sig .tc := ⟨.hbm, 29, rfl⟩
abbrev main_v15 : Ref sig .tc := ⟨.hbm, 30, rfl⟩
abbrev main_c_3 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_c_6 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_8 : Ref sig .tc := ⟨.hbm, 69, rfl⟩
abbrev main_v49 : Ref sig .tc := ⟨.hbm, 70, rfl⟩
abbrev main_v50 : Ref sig .tc := ⟨.hbm, 71, rfl⟩
abbrev main_c_9 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_c_10 : Ref sig .tc := ⟨.hbm, 78, rfl⟩
abbrev main_v56 : Ref sig .tc := ⟨.hbm, 79, rfl⟩
abbrev main_v57 : Ref sig .tc := ⟨.hbm, 80, rfl⟩
abbrev main_c_11 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg7_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem7_1 : DmaSem sig := 22

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x2 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x2 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x64 : S_.BroadcastsInDim S100000x64 (![] : Fin 0 → Fin S100000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  slices_S1x128_S1x64_0_0 : S1x128.Slices ![0, 0] S1x64
  shapeCasts_S1x64_S64 : S1x64.ShapeCasts S64
  slices_S1x128_S1x64_0_64 : S1x128.Slices ![0, 64] S1x64
  bcast_S64_S64x1_0 : S64.BroadcastsInDim S64x1 (![0] : Fin 1 → Fin S64x1.rank)
  concatenates_S64x1_S64x1_S64x2_d1 : Shape.Concatenates [S64x1, S64x1] S64x2 1
  inb_S64x2_S64x2_0_0 : ∀ a, (![0, 0] : Fin 2 → Nat) a + S64x2.size a ≤ S64x2.size a
  h_S64x2 : 0 < S64x2.numel
  shapeCasts_S64x2_S64x2 : S64x2.ShapeCasts S64x2
  inb_S5000x2_S5000x2_0_0 : ∀ a, (![0, 0] : Fin 2 → Nat) a + S5000x2.size a ≤ S5000x2.size a
  h_S5000x2 : 0 < S5000x2.numel
  slices_S100000x2_S100000x1_0_0 : S100000x2.Slices ![0, 0] S100000x1
  shapeCasts_S100000x1_S100000 : S100000x1.ShapeCasts S100000
  slices_S100000x2_S100000x1_0_1 : S100000x2.Slices ![0, 1] S100000x1
  shapeCasts_S1_S_ : S1.ShapeCasts S_
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S5000x64_S64x2_S5000x2_1_0_0_1_n_n_wf : DotDims.WF S5000x64 S64x2 S5000x2 [1] [0] [0] [1] [] []
  gather_S100000_S1600000x1_S1600000_n_0_n_n_0_1_1_wf : GatherDims.WF S100000 S1600000x1 S1600000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x2.size a ≤ S64x2.size a
  hwx1_6 : ∀ i : grid1.Coords, EltTy.bits .f32 = 32 ∨ (Rect.block (s := S64x2) S64x2.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x2.size a ≤ S100000x2.size a
  hwx1_7 : ∀ i : grid1.Coords, EltTy.bits .f32 = 32 ∨ (Rect.block (s := S100000x2) S5000x2.size (cc1_transform_7 i) (hinb1_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x2_S5000x2_1_0_0_1_n_n : DotDims S5000x64 S64x2 S5000x2 where
  lhsContracting := [1]
  rhsContracting := [0]
  lhsNonContracting := [0]
  rhsNonContracting := [1]
  lhsBatch := []
  rhsBatch := []
  wf := dot_S5000x64_S64x2_S5000x2_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf

abbrev win0_0 : Pipeline.Window sig grid0 :=
  Pipeline.Window.ofSpec (Memref.whole main_v23) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v35) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v42) S64x2.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v44) S5000x2.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x128 : Shape := ⟨2, ![1, 128]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩
abbrev S1600000x128 : Shape := ⟨2, ![1600000, 128]⟩
abbrev S128x1 : Shape := ⟨2, ![128, 1]⟩
abbrev S1x1 : Shape := ⟨2, ![1, 1]⟩

abbrev nBuf : Space → Nat
  | .hbm => 111
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S1x128, .f32⟩
  | .hbm, ⟨9, _⟩ => ⟨S1, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x64, .f32⟩
  | .hbm, ⟨23, _⟩ => ⟨S_, .f32⟩
  | .hbm, ⟨24, _⟩ => ⟨S100000x64, .f32⟩
  | .hbm, ⟨25, _⟩ => ⟨S1600000x1, .i32⟩
  | .hbm, ⟨26, _⟩ => ⟨S100000x64, .f32⟩
  | .hbm, ⟨27, _⟩ => ⟨S_, .f32⟩
  | .hbm, ⟨28, _⟩ => ⟨S1600000, .f32⟩
  | .hbm, ⟨29, _⟩ => ⟨S_, .f32⟩
  | .hbm, ⟨30, _⟩ => ⟨S100000, .f32⟩
  | .hbm, ⟨31, _⟩ => ⟨S1600000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x64, .f32⟩
  | .hbm, ⟨38, _⟩ => ⟨S100000x64, .f32⟩
  | .hbm, ⟨39, _⟩ => ⟨S64x64, .f32⟩
  | .hbm, ⟨40, _⟩ => ⟨S100000x64, .f32⟩
  | .hbm, ⟨41, _⟩ => ⟨S1x64, .f32⟩
  | .hbm, ⟨42, _⟩ => ⟨S100000x64, .f32⟩
  | .hbm, ⟨43, _⟩ => ⟨S100000x64, .f32⟩
  | .hbm, ⟨44, _⟩ => ⟨S64x64, .f32⟩
  | .hbm, ⟨45, _⟩ => ⟨S100000x64, .f32⟩
  | .hbm, ⟨46, _⟩ => ⟨S100000x64, .f32⟩
  | .hbm, ⟨47, _⟩ => ⟨S_, .f32⟩
  | .hbm, ⟨48, _⟩ => ⟨S100000x64, .f32⟩
  | .hbm, ⟨49, _⟩ => ⟨S100000x64, .f32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x64, .f32⟩
  | .hbm, ⟨59, _⟩ => ⟨S_, .f32⟩
  | .hbm, ⟨60, _⟩ => ⟨S100000x64, .f32⟩
  | .hbm, ⟨61, _⟩ => ⟨S1600000x1, .i32⟩
  | .hbm, ⟨62, _⟩ => ⟨S100000x64, .f32⟩
  | .hbm, ⟨63, _⟩ => ⟨S_, .f32⟩
  | .hbm, ⟨64, _⟩ => ⟨S1600000, .f32⟩
  | .hbm, ⟨65, _⟩ => ⟨S_, .f32⟩
  | .hbm, ⟨66, _⟩ => ⟨S100000, .f32⟩
  | .hbm, ⟨67, _⟩ => ⟨S1600000x1, .i32⟩
  | .hbm, ⟨68, _⟩ => ⟨S100000, .f32⟩
  | .hbm, ⟨69, _⟩ => ⟨S_, .f32⟩
  | .hbm, ⟨70, _⟩ => ⟨S100000, .f32⟩
  | .hbm, ⟨71, _⟩ => ⟨S100000, .f32⟩
  | .hbm, ⟨72, _⟩ => ⟨S100000x1, .f32⟩
  | .hbm, ⟨73, _⟩ => ⟨S100000x64, .f32⟩
  | .hbm, ⟨74, _⟩ => ⟨S100000x64, .f32⟩
  | .hbm, ⟨75, _⟩ => ⟨S64x64, .f32⟩
  | .hbm, ⟨76, _⟩ => ⟨S100000x64, .f32⟩
  | .hbm, ⟨77, _⟩ => ⟨S1x64, .f32⟩
  | .hbm, ⟨78, _⟩ => ⟨S100000x64, .f32⟩
  | .hbm, ⟨79, _⟩ => ⟨S100000x64, .f32⟩
  | .hbm, ⟨80, _⟩ => ⟨S64x64, .f32⟩
  | .hbm, ⟨81, _⟩ => ⟨S100000x64, .f32⟩
  | .hbm, ⟨82, _⟩ => ⟨S100000x64, .f32⟩
  | .hbm, ⟨83, _⟩ => ⟨S_, .f32⟩
  | .hbm, ⟨84, _⟩ => ⟨S100000x64, .f32⟩
  | .hbm, ⟨85, _⟩ => ⟨S100000x64, .f32⟩
  | .hbm, ⟨86, _⟩ => ⟨S_, .i32⟩
  | .hbm, ⟨87, _⟩ => ⟨S1600000, .i32⟩
  | .hbm, ⟨88, _⟩ => ⟨S1600000, .i1⟩
  | .hbm, ⟨89, _⟩ => ⟨S_, .i32⟩
  | .hbm, ⟨90, _⟩ => ⟨S1600000, .i32⟩
  | .hbm, ⟨91, _⟩ => ⟨S1600000, .i32⟩
  | .hbm, ⟨92, _⟩ => ⟨S1600000, .i32⟩
  | .hbm, ⟨93, _⟩ => ⟨S1600000x1, .i32⟩
  | .hbm, ⟨94, _⟩ => ⟨S1600000x64, .f32⟩
  | .hbm, ⟨95, _⟩ => ⟨S_, .i32⟩
  | .hbm, ⟨96, _⟩ => ⟨S1600000, .i32⟩
  | .hbm, ⟨97, _⟩ => ⟨S1600000, .i1⟩
  | .hbm, ⟨98, _⟩ => ⟨S_, .i32⟩
  | .hbm, ⟨99, _⟩ => ⟨S1600000, .i32⟩
  | .hbm, ⟨100, _⟩ => ⟨S1600000, .i32⟩
  | .hbm, ⟨101, _⟩ => ⟨S1600000, .i32⟩
  | .hbm, ⟨102, _⟩ => ⟨S1600000x1, .i32⟩
  | .hbm, ⟨103, _⟩ => ⟨S1600000x64, .f32⟩
  | .hbm, ⟨104, _⟩ => ⟨S1600000x128, .f32⟩
  | .hbm, ⟨105, _⟩ => ⟨S128x1, .f32⟩
  | .hbm, ⟨106, _⟩ => ⟨S1600000x1, .f32⟩
  | .hbm, ⟨107, _⟩ => ⟨S1x1, .f32⟩
  | .hbm, ⟨108, _⟩ => ⟨S1600000x1, .f32⟩
  | .hbm, ⟨109, _⟩ => ⟨S1600000x1, .f32⟩
  | .hbm, ⟨110, _⟩ => ⟨S1600000, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call0_cst : Ref sig .tc := ⟨.hbm, 47, rfl⟩
abbrev main_call0_v0 : Ref sig .tc := ⟨.hbm, 48, rfl⟩
abbrev main_v31 : Ref sig .tc := ⟨.hbm, 49, rfl⟩
abbrev main_c_4 : Ref sig .tc := ⟨.hbm, 50, rfl⟩
abbrev main_v32 : Ref sig .tc := ⟨.hbm, 51, rfl⟩
abbrev main_v33 : Ref sig .tc := ⟨.hbm, 52, rfl⟩
abbrev main_c_5 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_6 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_7 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_9 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_call1_cst : Ref sig .tc := ⟨.hbm, 83, rfl⟩
abbrev main_call1_v0 : Ref sig .tc := ⟨.hbm, 84, rfl⟩
abbrev main_v59 : Ref sig .tc := ⟨.hbm, 85, rfl⟩
abbrev main_c_10 : Ref sig .tc := ⟨.hbm, 86, rfl⟩
abbrev main_v60 : Ref sig .tc := ⟨.hbm, 87, rfl⟩
abbrev main_v61 : Ref sig .tc := ⟨.hbm, 88, rfl⟩
abbrev main_c_11 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_c_12 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  concatenates_S1600000x64_S1600000x64_S1600000x128_d1 : Shape.Concatenates [S1600000x64, S1600000x64] S1600000x128 1
  transposes_S1x128_S128x1_1_0 : S1x128.Transposes [1, 0] S128x1
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  shapeCasts_S1600000x1_S1600000 : S1600000x1.ShapeCasts S1600000
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []
  dot_S1600000x128_S128x1_S1600000x1_1_0_0_1_n_n_wf : DotDims.WF S1600000x128 S128x1 S1600000x1 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S1600000x128_S128x1_S1600000x1_1_0_0_1_n_n : DotDims S1600000x128 S128x1 S1600000x1 where
  lhsContracting := [1]
  rhsContracting := [0]
  lhsNonContracting := [0]
  rhsNonContracting := [1]
  lhsBatch := []
  rhsBatch := []
  wf := dot_S1600000x128_S128x1_S1600000x1_1_0_0_1_n_n_wf

class Facts : Prop extends Facts₀ where

variable [Facts]
-- ==== Proof.KRun.lean ====
/-
  The idealized kernel's whole run with its RESULT named.

  The program is a chain of five segments: host operations, the first node-wise dense stage, host operations, the
  second node-wise dense stage with the scorer projection, host operations.  Every weakly fair execution ends with
  the result buffer holding what the last stretch of host operations computes from the buffers the second stage
  leaves (the boundary contents `W5`), and with every argument array as launched.
-/
import proofs.«155836_j7816840478969_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result buffer ends at the last boundary's contents,
    the arguments as launched. -/
theorem run_result : θ_run defs (onTc (τ := τ) (main (F := F))) ⟨m, fun _ => 0, ρ⟩ (fun r => ∀ c : Dev nD,
      r.2.mem ((c.tc : Thread nD τ).loc main_v66) = W5 m ρ c (Proc.devRef .tc main_v66)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v66 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c)⟩)

end Cert.KernelIdeal.Whole

end
-- ==== Proof.LibPlainDot.lean ====
/-
  The product of an [M, K] matrix with a [K, N] matrix, contracted on the left operand's second axis and the right
  operand's first, read at an output index. Independent of any program.

  With no batch axis the contraction index has one coordinate, running over the K shared positions; at the output index
  (p, q) the left operand is read at (p, k) and the right at (k, q). So the contraction's sum over its own index type is
  the familiar sum over k of l (p, k) · r (k, q).
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- The dimension numbers of a plain matrix product [M, K] × [K, N] → [M, N]. -/
abbrev plainDot (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- THE CONTRACTION AS A SUM OVER k: at the output index (p, q) the product's terms are l (p, k) · r (k, q). -/
theorem plainDot_sum {M K N : Nat}
    (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (p : Fin M) (q : Fin N) :
    ∑ k : (plainDot M K N wf).contr.Idx,
        l ((plainDot M K N wf).lhsIdx (ix2 p q) k) * r ((plainDot M K N wf).rhsIdx (ix2 p q) k)
      = ∑ k : Fin K, l (ix2 p k) * r (ix2 k q) := by
  rw [← Equiv.sum_comp (contrEquiv1 (plainDot M K N wf) K rfl rfl).symm]
  refine Finset.sum_congr rfl fun k _ => ?_
  have hk := contrEquiv1_symm_val (plainDot M K N wf) K rfl rfl k
  have el : (plainDot M K N wf).lhsIdx (ix2 p q) ((contrEquiv1 (plainDot M K N wf) K rfl rfl).symm k) = ix2 p k :=
    funext fun a => Fin.ext (by
      match a with
      | ⟨0, _⟩ =>
        show ((plainDot M K N wf).lhsIdx (ix2 p q) ((contrEquiv1 (plainDot M K N wf) K rfl rfl).symm k) 0).val = p.val
        unfold DotDims.lhsIdx
        rw [dif_neg (show ¬ (0 : Fin 2) ∈ ([] : List (Fin 2)) from List.not_mem_nil),
          dif_pos (show (0 : Fin 2) ∈ ([0] : List (Fin 2)) from List.mem_singleton.mpr rfl)]
        rfl
      | ⟨1, _⟩ => exact ((plainDot M K N wf).lhsIdx_val_of_single rfl (ix2 p q) _).trans hk)
  have er : (plainDot M K N wf).rhsIdx (ix2 p q) ((contrEquiv1 (plainDot M K N wf) K rfl rfl).symm k) = ix2 k q :=
    funext fun a => Fin.ext (by
      match a with
      | ⟨0, _⟩ => exact ((plainDot M K N wf).rhsIdx_val_of_single rfl (ix2 p q) _).trans hk
      | ⟨1, _⟩ =>
        show ((plainDot M K N wf).rhsIdx (ix2 p q) ((contrEquiv1 (plainDot M K N wf) K rfl rfl).symm k) 1).val = q.val
        unfold DotDims.rhsIdx
        rw [dif_neg (show ¬ (1 : Fin 2) ∈ ([] : List (Fin 2)) from List.not_mem_nil),
          dif_pos (show (1 : Fin 2) ∈ ([1] : List (Fin 2)) from List.mem_singleton.mpr rfl)]
        rfl)
  rw [el, er]

/-- A kernel's matrix product into a zero accumulator, at (p, q). -/
theorem matmul_zero_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDot M K N wf) prec l r (constant (F := Ideal) ⟨2, ![M, N]⟩ .f32 0x00000000#32) (ix2 p q)
      = ∑ k : Fin K, l (ix2 p k) * r (ix2 k q) := by
  rw [Ideal.matmul_constant_zero_apply]
  exact plainDot_sum wf l r p q

/-- The host's matrix product, at (p, q). -/
theorem dotGeneral_plain_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule) (l : FVec Ideal ⟨2, ![M, K]⟩ φ₁) (r : FVec Ideal ⟨2, ![K, N]⟩ φ₂)
    (p : Fin M) (q : Fin N) :
    FloatOps.dotGeneral (plainDot M K N wf) prec sched l r (ix2 p q)
      = ∑ k : Fin K, l (ix2 p k) * r (ix2 k q) := by
  rw [Ideal.dotGeneral_apply]
  exact plainDot_sum wf l r p q

end Cert.Lib

end
-- ==== Proof.Spec.lean ====
/-
  The mathematics of a two-layer mean-aggregation graph network with a linear edge scorer, over the extended reals,
  stated once and independently of any program.

  A LAYER sends node features X (N rows of 64) and their neighbour sums A to
      max ( Σₖ (A(n,k) / max(c(n), 1)) · Wl(j,k)  +  b(j)  +  Σₖ X(n,k) · Wr(j,k) ,  0 ),
  where c(n) is the number of edges that point at node n.  One implementation divides each neighbour sum by
  max(c, 1); another multiplies it by the reciprocal 1 / max(c, 1) computed once per node.  Because c(n) is a natural
  number, max(c(n), 1) is a nonzero real, and on the extended reals division by a nonzero real IS multiplication by
  its reciprocal (at the infinities too), so the two forms agree for every value of the neighbour sums.

  The SCORER of an edge (s, d) is the 128-term product of the concatenated rows h(s), h(d) with a weight row, plus a
  bias.  A sum over 128 positions splits into the sum over the first 64 and the sum over the last 64, so the score is
  the first half of the weights against h(s) plus the second half against h(d): the per-node projections can be taken
  before the rows are gathered.
-/
import Idealize.ShloMosaic.Lib.ValueIdx
import Idealize.ShloMosaic.PureOps.Ideal

noncomputable section

namespace Cert.Sage

open Idealize.ShloMosaic

/-- The float word of 1.0, read as an extended real. -/
abbrev one : EReal := Ideal.ofBits .f32 0x3F800000#32
/-- The float word of +0.0, read as an extended real. -/
abbrev zero : EReal := Ideal.ofBits .f32 0x00000000#32

/-- The word of 1.0 denotes the real number 1. -/
theorem one_eq : one = ((1 : ℝ) : EReal) := by
  show Ideal.ofBits .f32 0x3F800000#32 = ((1 : ℝ) : EReal)
  simp [Ideal.ofBits, Ideal.ieee, -EReal.coe_mul]; norm_num

variable {N : Nat}

/-- One layer, dividing the neighbour sums by the clamped in-degree. -/
def layer (A X : Fin N → Fin 64 → EReal) (c : Fin N → EReal) (Wl : Fin 64 → Fin 64 → EReal) (b : Fin 64 → EReal)
    (Wr : Fin 64 → Fin 64 → EReal) (n : Fin N) (j : Fin 64) : EReal :=
  max ((∑ k : Fin 64, Ideal.div (A n k) (max (c n) one) * Wl j k) + b j + ∑ k : Fin 64, X n k * Wr j k) zero

/-- One layer, multiplying the neighbour sums by a per-node factor `r`. -/
def layerMul (A X : Fin N → Fin 64 → EReal) (r : Fin N → EReal) (Wl : Fin 64 → Fin 64 → EReal) (b : Fin 64 → EReal)
    (Wr : Fin 64 → Fin 64 → EReal) (n : Fin N) (j : Fin 64) : EReal :=
  max ((∑ k : Fin 64, (A n k * r n) * Wl j k) + b j + ∑ k : Fin 64, X n k * Wr j k) zero

/-- Multiplying by the reciprocal of the clamped in-degree is dividing by it, when the in-degree is a natural number. -/
theorem mul_recip_eq_div (a : EReal) (k : ℕ) :
    a * Ideal.div one (max (((k : ℝ) : EReal)) one) = Ideal.div a (max (((k : ℝ) : EReal)) one) := by
  rw [one_eq, ← EReal.coe_strictMono.monotone.map_max]
  have hne : max ((k : ℕ) : ℝ) 1 ≠ 0 := by
    have : (1 : ℝ) ≤ max ((k : ℕ) : ℝ) 1 := le_max_right _ _
    linarith
  rw [Ideal.div_coe hne, Ideal.div_coe hne, EReal.coe_one, one_mul]

/-- The two forms of a layer agree when the factor is the reciprocal of the clamped in-degree. -/
theorem layerMul_eq_layer (A X : Fin N → Fin 64 → EReal) (c r : Fin N → EReal) (Wl : Fin 64 → Fin 64 → EReal)
    (b : Fin 64 → EReal) (Wr : Fin 64 → Fin 64 → EReal)
    (hc : ∀ n, ∃ k : ℕ, c n = (((k : ℕ) : ℝ) : EReal)) (hr : ∀ n, r n = Ideal.div one (max (c n) one)) :
    layerMul A X r Wl b Wr = layer A X c Wl b Wr := by
  funext n j
  unfold layerMul layer
  obtain ⟨k, hk⟩ := hc n
  have e : ∀ q : Fin 64, A n q * r n = Ideal.div (A n q) (max (c n) one) := fun q => by
    rw [hr n, hk]; exact mul_recip_eq_div _ k
  simp only [e]

/-- Two rows of 64 side by side, as one row of 128. -/
def cat (a b : Fin 64 → EReal) (k : Fin 128) : EReal :=
  if h : k.val < 64 then a ⟨k.val, h⟩ else b ⟨k.val - 64, by omega⟩

/-- A 128-term product with a concatenated row splits into the two 64-term products. -/
theorem sum_cat (a b : Fin 64 → EReal) (w : Fin 128 → EReal) :
    ∑ k : Fin 128, cat a b k * w k
      = (∑ k : Fin 64, a k * w ⟨k.val, by omega⟩) + ∑ k : Fin 64, b k * w ⟨64 + k.val, by omega⟩ := by
  have h := Fin.sum_univ_add (a := 64) (b := 64) (fun k : Fin (64 + 64) => cat a b k * w k)
  refine h.trans ?_
  congr 1

end Cert.Sage

end
-- ==== Proof.KPay.lean ====
/-
  The arithmetic of the two dense stages on one block of 5000 nodes, as formulas over the extended reals.

  The first stage holds, for a block, the neighbour sums A (5000 × 64), a per-node factor r (5000 × 1), the node
  features X (5000 × 64), two 64 × 64 weights Wl, Wr and a bias row b.  It stores, at row p and feature j,
      max ( Σₖ (A(p,k) · r(p)) · Wl(j,k)  +  b(j)  +  Σₖ X(p,k) · Wr(j,k) ,  0 ):
  each matrix product is taken with the TRANSPOSED weight, so the weight is read at (j, k); the products are formed
  into a zero accumulator, so each is a plain sum over k; and rounding the factors to a shorter float format first is
  the identity on the extended reals.  The second stage computes the same hidden rows and stores their product with
  a 64 × 2 projection matrix.
-/
import proofs.«155836_j7816840478969_2_alg».proof.Proof.Gen.KernelIdeal.Skeleton
import proofs.«155836_j7816840478969_2_alg».proof.Proof.LibPlainDot
import proofs.«155836_j7816840478969_2_alg».proof.Proof.Spec
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx

/-- A column `[a, 1]` spread over `b` columns: at `(p, c)` it is the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A transposed matrix read at `(r, c)` is the matrix at `(c, r)`. -/
theorem transpose10_apply {α : Type} {a b : ℕ} (x : (⟨2, ![a, b]⟩ : Shape).Idx → α)
    (h : (⟨2, ![a, b]⟩ : Shape).Transposes [1, 0] ⟨2, ![b, a]⟩) (r : Fin b) (c : Fin a) :
    transpose ⟨2, ![b, a]⟩ [1, 0] x h (ix2 r c) = x (ix2 c r) := by
  refine transpose_apply [1, 0] x h (ix2 r c) (ix2 c r) fun bb => ?_
  match bb with
  | ⟨0, _⟩ => rfl
  | ⟨1, _⟩ => rfl

/-- THE FIRST STAGE'S BLOCK at row `p`, feature `j`: the neighbour sums of the row scaled by the row's factor, against
    row `j` of the first weight, plus the bias, plus the row's own features against row `j` of the second weight,
    clamped below at zero. (Rounding to a shorter format before a product is the identity on the extended reals.) -/
theorem pay0_apply (x0 : Vec Ideal S5000x64 .f32) (x2 : Vec Ideal S5000x1 .f32) (x7 : Vec Ideal S5000x64 .f32)
    (x9 x11 : Vec Ideal S64x64 .f32) (x17 : Vec Ideal S1x64 .f32) (p : Fin 5000) (j : Fin 64) :
    k0_pay1 (F := Ideal) x0 x2 x7 x9 x11 x17 (ix2 p j)
      = max ((∑ k : Fin 64, (x0 (ix2 p k) * x2 (ix2 p (0 : Fin 1))) * x9 (ix2 j k)) + x17 (ix2 (0 : Fin 1) j)
          + ∑ k : Fin 64, x7 (ix2 p k) * x11 (ix2 j k)) Cert.Sage.zero := by
  unfold k0_pay1
  simp only [shapeCast_self, maximumf, addf, Ideal.maximumf_def, Ideal.addf_def, broadcast]
  have e1 := Cert.Lib.matmul_zero_apply (M := 5000) (K := 64) (N := 64) dot_S5000x64_S64x64_S5000x64_1_0_0_1_n_n.wf none
    (truncf FTy.bf16 (mulf x0 (broadcastTo S5000x64 x2 broadcasts_S5000x1_S5000x64)) bitsLt_bf16_f32)
    (transpose S64x64 [1, 0] (truncf FTy.bf16 x9 bitsLt_bf16_f32) transposes_S64x64_p1_0_S64x64) p j
  have e2 := Cert.Lib.matmul_zero_apply (M := 5000) (K := 64) (N := 64) dot_S5000x64_S64x64_S5000x64_1_0_0_1_n_n.wf none
    (truncf FTy.bf16 x7 bitsLt_bf16_f32)
    (transpose S64x64 [1, 0] (truncf FTy.bf16 x11 bitsLt_bf16_f32) transposes_S64x64_p1_0_S64x64) p j
  have e3 := Idealize.ShloMosaic.ValueIdx.broadcastTo_1b_ab_apply (a := 5000) (b := 64) x17 broadcasts_S1x64_S5000x64 p j
  refine (congrArg₂ max (congrArg₂ (· + ·) (congrArg₂ (· + ·) e1 e3) e2) rfl).trans ?_
  have t1 : ∀ k : Fin 64, transpose S64x64 [1, 0] (truncf (F := Ideal) FTy.bf16 x9 bitsLt_bf16_f32) transposes_S64x64_p1_0_S64x64 (ix2 k j)
      = truncf (F := Ideal) FTy.bf16 x9 bitsLt_bf16_f32 (ix2 j k) := fun k =>
    transpose10_apply (a := 64) (b := 64) (truncf (F := Ideal) FTy.bf16 x9 bitsLt_bf16_f32) transposes_S64x64_p1_0_S64x64 k j
  have t2 : ∀ k : Fin 64, transpose S64x64 [1, 0] (truncf (F := Ideal) FTy.bf16 x11 bitsLt_bf16_f32) transposes_S64x64_p1_0_S64x64 (ix2 k j)
      = truncf (F := Ideal) FTy.bf16 x11 bitsLt_bf16_f32 (ix2 j k) := fun k =>
    transpose10_apply (a := 64) (b := 64) (truncf (F := Ideal) FTy.bf16 x11 bitsLt_bf16_f32) transposes_S64x64_p1_0_S64x64 k j
  have t3 : ∀ k : Fin 64, broadcastTo S5000x64 x2 broadcasts_S5000x1_S5000x64 (ix2 p k) = x2 (ix2 p (0 : Fin 1)) := fun k =>
    broadcastTo_a1_ab_apply (a := 5000) (b := 64) x2 broadcasts_S5000x1_S5000x64 p k
  simp only [t1, t2, truncf, Ideal.truncf_def, mulf, Ideal.mulf_def, t3]
  rfl

/-- The second stage's stored value is the product of the hidden rows (the first stage's formula on this stage's
    blocks) with the two-column projection matrix. -/
theorem pay1_eq (v0 : Vec Ideal S5000x64 .f32) (v2 : Vec Ideal S5000x1 .f32) (v7 : Vec Ideal S5000x64 .f32)
    (v10 v12 : Vec Ideal S64x64 .f32) (v18 : Vec Ideal S1x64 .f32) (v26 : Vec Ideal S64x2 .f32) :
    k1_pay1 (F := Ideal) v0 v2 v7 v10 v12 v18 v26
      = FloatOps.matmul dot_S5000x64_S64x2_S5000x2_1_0_0_1_n_n none
          (truncf (F := Ideal) FTy.bf16 (k0_pay1 (F := Ideal) v0 v2 v7 v10 v12 v18) bitsLt_bf16_f32)
          (truncf (F := Ideal) FTy.bf16 v26 bitsLt_bf16_f32) (constant (F := Ideal) S5000x2 .f32 0x00000000#32) := by
  unfold k1_pay1 k0_pay1
  simp only [shapeCast_self]

/-- THE SECOND STAGE'S BLOCK at row `p`, column `q`: the hidden row `p` against column `q` of the projection matrix. -/
theorem pay1_apply (v0 : Vec Ideal S5000x64 .f32) (v2 : Vec Ideal S5000x1 .f32) (v7 : Vec Ideal S5000x64 .f32)
    (v10 v12 : Vec Ideal S64x64 .f32) (v18 : Vec Ideal S1x64 .f32) (v26 : Vec Ideal S64x2 .f32) (p : Fin 5000) (q : Fin 2) :
    k1_pay1 (F := Ideal) v0 v2 v7 v10 v12 v18 v26 (ix2 p q)
      = ∑ j : Fin 64, max ((∑ k : Fin 64, (v0 (ix2 p k) * v2 (ix2 p (0 : Fin 1))) * v10 (ix2 j k)) + v18 (ix2 (0 : Fin 1) j)
          + ∑ k : Fin 64, v7 (ix2 p k) * v12 (ix2 j k)) Cert.Sage.zero * v26 (ix2 j q) := by
  rw [pay1_eq]
  refine (Cert.Lib.matmul_zero_apply (M := 5000) (K := 64) (N := 2) dot_S5000x64_S64x2_S5000x2_1_0_0_1_n_n.wf none
    (truncf (F := Ideal) FTy.bf16 (k0_pay1 (F := Ideal) v0 v2 v7 v10 v12 v18) bitsLt_bf16_f32)
    (truncf (F := Ideal) FTy.bf16 v26 bitsLt_bf16_f32) p q).trans ?_
  refine Finset.sum_congr rfl fun j _ => ?_
  simp only [truncf, Ideal.truncf_def]
  rw [pay0_apply]

end Cert.KernelIdeal.Pay

end
-- ==== Proof.KBlocks0.lean ====
/-
  What the first dense stage leaves in its output array, as one function of the arrays it is entered with.

  The stage runs over 20 blocks of 5000 consecutive nodes.  At block t it reads rows 5000·t … 5000·t + 4999 of the
  neighbour sums, of the node features and of the per-node factor, and the whole of the two weights and the bias row, and
  writes rows 5000·t … 5000·t + 4999 of the hidden array.  The 20 blocks tile the 100000 rows, so the hidden array ends
  holding, at node n and feature j, the layer formula of the ENTRY arrays at row n — whatever the block n falls in.
-/
import proofs.«155836_j7816840478969_2_alg».proof.Proof.Gen.KernelIdeal.Frame
import proofs.«155836_j7816840478969_2_alg».proof.Proof.KPay
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

theorem hz : (![0, 0] : Fin 2 → Nat) = fun _ => 0 := funext fun a => by fin_cases a <;> rfl

/-- Row `p` of block `T` is node `5000·T + p`. -/
def rowOf (T : ℕ) (hT : T < 20) (p : Fin 5000) : Fin 100000 := ⟨T * 5000 + p.val, by have := p.isLt; omega⟩

/-- THE HIDDEN ARRAY of a dense stage, from whole arrays: neighbour sums `A`, features `X`, the per-node factor `R`
    (a column), the weights `Wl`, `Wr` and the bias row `B`. -/
def hidden (A X : S100000x64.Idx → EReal) (R : S100000x1.Idx → EReal) (Wl : S64x64.Idx → EReal) (B : S1x64.Idx → EReal)
    (Wr : S64x64.Idx → EReal) : S100000x64.Idx → EReal := fun i =>
  Cert.Sage.layerMul (N := 100000) (fun n k => A (ix2 n k)) (fun n k => X (ix2 n k)) (fun n => R (ix2 n (0 : Fin 1)))
    (fun j k => Wl (ix2 j k)) (fun j => B (ix2 (0 : Fin 1) j)) (fun j k => Wr (ix2 j k)) (i 0) (i 1)

/-- One block's stored value at a row of the block is the hidden array at the node that row is, when the block's
    operands are the corresponding rows of the whole arrays. -/
theorem point_hidden (x0 x1 : Vec Ideal S5000x64 .f32) (x2 : Vec Ideal S5000x1 .f32) (x3 x5 : Vec Ideal S64x64 .f32)
    (x4 : Vec Ideal S1x64 .f32) (A X : S100000x64.Idx → EReal) (R : S100000x1.Idx → EReal) (Wl : S64x64.Idx → EReal)
    (B : S1x64.Idx → EReal) (Wr : S64x64.Idx → EReal) (T : ℕ) (hT : T < 20)
    (h0 : ∀ (p : Fin 5000) (k : Fin 64), x0 (ix2 p k) = A (ix2 (rowOf T hT p) k))
    (h1 : ∀ (p : Fin 5000) (k : Fin 64), x1 (ix2 p k) = X (ix2 (rowOf T hT p) k))
    (h2 : ∀ p : Fin 5000, x2 (ix2 p (0 : Fin 1)) = R (ix2 (rowOf T hT p) (0 : Fin 1)))
    (h3 : ∀ j k : Fin 64, x3 (ix2 j k) = Wl (ix2 j k)) (h4 : ∀ j : Fin 64, x4 (ix2 (0 : Fin 1) j) = B (ix2 (0 : Fin 1) j))
    (h5 : ∀ j k : Fin 64, x5 (ix2 j k) = Wr (ix2 j k))
    (y : S5000x64.Idx) (i : S100000x64.Idx) (hi0 : (i 0).val = T * 5000 + (y 0).val) (hi1 : (i 1).val = (y 1).val) :
    k0_pay1 (F := Ideal) x0 x2 x1 x3 x5 x4 y = hidden A X R Wl B Wr i := by
  obtain ⟨p, j, rfl⟩ : ∃ (p : Fin 5000) (j : Fin 64), y = ix2 p j := ⟨y 0, y 1, eq_ix2 y⟩
  obtain ⟨n, j', rfl⟩ : ∃ (n : Fin 100000) (j' : Fin 64), i = ix2 n j' := ⟨i 0, i 1, eq_ix2 i⟩
  have en : n = rowOf T hT p := Fin.ext hi0
  have ej : j' = j := Fin.ext hi1
  subst en ej
  rw [Cert.KernelIdeal.Pay.pay0_apply]
  show _ = Cert.Sage.layerMul _ _ _ _ _ _ (rowOf T hT p) j'
  unfold Cert.Sage.layerMul
  simp only [h0, h1, h2, h3, h4, h5]

/-! ## The stage's blocks as rows of the entry arrays -/

section Stage0

variable (V : (c : Dev nD) → (b : Ref sig .tc) → Buf (Elt Ideal) ((c : Thread nD τ).loc b))

/-- Where each window's block sits at each of the 20 points: the three node-indexed operands and the output at block
    row `t`, the weights and the bias at the origin. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem lt20 (t : Fin cfg0.N) : t.val < 20 := by
  exact Nat.lt_of_lt_of_eq t.isLt N_0

/-- Block `t` of the neighbour sums is rows `5000·t …` of the array. -/
theorem blk0_0 (c : Dev nD) (t : Fin cfg0.N) (p : Fin 5000) (k : Fin 64) :
    (iblk0 V c 0 t : Vec Ideal S5000x64 .f32) (ix2 p k)
      = (V c main_v23 : S100000x64.Idx → EReal) (ix2 (rowOf t.val (lt20 t) p) k) := by
  obtain ⟨h0, h1, -⟩ := idx0 t
  unfold iblk0
  rw [View.read_apply]
  show V c main_v23 _ = V c main_v23 _
  congr 1
  funext a
  apply Fin.ext
  match a with
  | ⟨0, _⟩ => show win0_0.index t (0 : Fin 2) * 5000 + 1 * p.val = t.val * 5000 + p.val; rw [h0]; omega
  | ⟨1, _⟩ => show win0_0.index t (1 : Fin 2) * 64 + 1 * k.val = k.val; rw [h1]; omega

/-- Block `t` of the node features. -/
theorem blk0_1 (c : Dev nD) (t : Fin cfg0.N) (p : Fin 5000) (k : Fin 64) :
    (iblk0 V c 1 t : Vec Ideal S5000x64 .f32) (ix2 p k)
      = (V c main_arg0 : S100000x64.Idx → EReal) (ix2 (rowOf t.val (lt20 t) p) k) := by
  obtain ⟨-, -, h0, h1, -⟩ := idx0 t
  unfold iblk0
  rw [View.read_apply]
  show V c main_arg0 _ = V c main_arg0 _
  congr 1
  funext a
  apply Fin.ext
  match a with
  | ⟨0, _⟩ => show win0_1.index t (0 : Fin 2) * 5000 + 1 * p.val = t.val * 5000 + p.val; rw [h0]; omega
  | ⟨1, _⟩ => show win0_1.index t (1 : Fin 2) * 64 + 1 * k.val = k.val; rw [h1]; omega

/-- Block `t` of the per-node factor. -/
theorem blk0_2 (c : Dev nD) (t : Fin cfg0.N) (p : Fin 5000) :
    (iblk0 V c 2 t : Vec Ideal S5000x1 .f32) (ix2 p (0 : Fin 1))
      = (V c main_v13 : S100000x1.Idx → EReal) (ix2 (rowOf t.val (lt20 t) p) (0 : Fin 1)) := by
  obtain ⟨-, -, -, -, h0, h1, -⟩ := idx0 t
  unfold iblk0
  rw [View.read_apply]
  show V c main_v13 _ = V c main_v13 _
  congr 1
  funext a
  apply Fin.ext
  match a with
  | ⟨0, _⟩ => show win0_2.index t (0 : Fin 2) * 5000 + 1 * p.val = t.val * 5000 + p.val; rw [h0]; omega
  | ⟨1, _⟩ => show win0_2.index t (1 : Fin 2) * 1 + 1 * 0 = 0; rw [h1]

/-- The first weight is read whole at every point. -/
theorem blk0_3 (c : Dev nD) (t : Fin cfg0.N) (j k : Fin 64) :
    (iblk0 V c 3 t : Vec Ideal S64x64 .f32) (ix2 j k) = (V c main_arg2 : S64x64.Idx → EReal) (ix2 j k) := by
  obtain ⟨-, -, -, -, -, -, h0, h1, -⟩ := idx0 t
  unfold iblk0
  rw [View.read_apply]
  show V c main_arg2 _ = V c main_arg2 _
  congr 1
  funext a
  apply Fin.ext
  match a with
  | ⟨0, _⟩ => show win0_3.index t (0 : Fin 2) * 64 + 1 * j.val = j.val; rw [h0]; omega
  | ⟨1, _⟩ => show win0_3.index t (1 : Fin 2) * 64 + 1 * k.val = k.val; rw [h1]; omega

/-- The bias row is read whole at every point. -/
theorem blk0_4 (c : Dev nD) (t : Fin cfg0.N) (j : Fin 64) :
    (iblk0 V c 4 t : Vec Ideal S1x64 .f32) (ix2 (0 : Fin 1) j) = (V c main_v24 : S1x64.Idx → EReal) (ix2 (0 : Fin 1) j) := by
  obtain ⟨-, -, -, -, -, -, -, -, h0, h1, -⟩ := idx0 t
  unfold iblk0
  rw [View.read_apply]
  show V c main_v24 _ = V c main_v24 _
  congr 1
  funext a
  apply Fin.ext
  match a with
  | ⟨0, _⟩ => show win0_4.index t (0 : Fin 2) * 1 + 1 * 0 = 0; rw [h0]
  | ⟨1, _⟩ => show win0_4.index t (1 : Fin 2) * 64 + 1 * j.val = j.val; rw [h1]; omega

/-- The second weight is read whole at every point. -/
theorem blk0_5 (c : Dev nD) (t : Fin cfg0.N) (j k : Fin 64) :
    (iblk0 V c 5 t : Vec Ideal S64x64 .f32) (ix2 j k) = (V c main_arg4 : S64x64.Idx → EReal) (ix2 j k) := by
  obtain ⟨-, -, -, -, -, -, -, -, -, -, h0, h1, -⟩ := idx0 t
  unfold iblk0
  rw [View.read_apply]
  show V c main_arg4 _ = V c main_arg4 _
  congr 1
  funext a
  apply Fin.ext
  match a with
  | ⟨0, _⟩ => show win0_5.index t (0 : Fin 2) * 64 + 1 * j.val = j.val; rw [h0]; omega
  | ⟨1, _⟩ => show win0_5.index t (1 : Fin 2) * 64 + 1 * k.val = k.val; rw [h1]; omega

/-- The hidden array of the first stage, of the arrays the stage is entered with. -/
abbrev hidden0 (c : Dev nD) : S100000x64.Idx → EReal :=
  hidden (V c main_v23) (V c main_arg0) (V c main_v13) (V c main_arg2) (V c main_v24) (V c main_arg4)

/-- WHAT POINT `t` WRITES BACK is block `t` of the hidden array. -/
theorem flushed0 (c : Dev nD) (t : Fin cfg0.N) :
    (dat0 V c).flushed 6 t = ((cfg0.win 6).blk t).view.read (Elt Ideal) (hidden0 V c) := by
  obtain ⟨-, -, -, -, -, -, -, -, -, -, -, -, h0, h1⟩ := idx0 t
  show (cfg0.win 6).cut (grid0.coords t) ((dat0 V c).after 6 t) = _
  rw [after0_6]
  unfold out0_6
  rw [View.canon_unit_zero hz]
  simp only [View.ld_unit_zero (S := S5000x64) hz, View.ld_unit_zero (S := S5000x1) hz,
    View.ld_unit_zero (S := S64x64) hz, View.ld_unit_zero (S := S1x64) hz]
  funext y
  rw [View.read_apply]
  exact point_hidden (iblk0 V c 0 t) (iblk0 V c 1 t) (iblk0 V c 2 t) (iblk0 V c 3 t) (iblk0 V c 5 t) (iblk0 V c 4 t)
    (V c main_v23) (V c main_arg0) (V c main_v13) (V c main_arg2) (V c main_v24) (V c main_arg4) t.val (lt20 t)
    (blk0_0 V c t) (blk0_1 V c t) (blk0_2 V c t) (blk0_3 V c t) (blk0_4 V c t) (blk0_5 V c t) y
    (((cfg0.win 6).blk t).view.emb y)
    (by show win0_6.index t (0 : Fin 2) * 5000 + 1 * (y 0).val = t.val * 5000 + (y 0).val; rw [h0]; omega)
    (by show win0_6.index t (1 : Fin 2) * 64 + 1 * (y 1).val = (y 1).val; rw [h1]; omega)

/-- Every node's row lies in the block of the point `n / 5000`. -/
theorem cover0 (i : S100000x64.Idx) :
    ∃ t : Fin cfg0.N, (cfg0.win 6).flush t = true ∧ i ∈ ((cfg0.win 6).blk t).view.set := by
  have hi0 : (i 0).val < 100000 := (i 0).isLt
  have hi1 : (i 1).val < 64 := (i 1).isLt
  have hN : cfg0.N = 20 := N_0
  let t : Fin cfg0.N := ⟨(i 0).val / 5000, by rw [hN]; omega⟩
  obtain ⟨-, -, -, -, -, -, -, -, -, -, -, -, h0, h1⟩ := idx0 t
  have ht : t.val = (i 0).val / 5000 := rfl
  refine ⟨t, flush0_6 t, ?_⟩
  show i ∈ ((View.whole main_v25).slice (win0_6.rect t)).set
  rw [View.set_slice_whole, Rect.mem_set_unit]
  intro a
  match a with
  | ⟨0, _⟩ =>
    show win0_6.index t (0 : Fin 2) * 5000 ≤ (i 0).val ∧ (i 0).val < win0_6.index t (0 : Fin 2) * 5000 + 5000
    rw [h0, ht]; omega
  | ⟨1, _⟩ =>
    show win0_6.index t (1 : Fin 2) * 64 ≤ (i 1).val ∧ (i 1).val < win0_6.index t (1 : Fin 2) * 64 + 64
    rw [h1]; omega

/-- THE HIDDEN ARRAY AFTER THE FIRST STAGE is `hidden0` of the entry arrays. -/
theorem final0 (c : Dev nD) : (dat0 V c).arrAt 6 cfg0.N = hidden0 V c :=
  (dat0 V c).arrAt_eq_of_cover 6 (hidden0 V c) (fun t _ => flushed0 V c t) (cover0)

end Stage0

end Cert.KernelIdeal.Blocks

end
-- ==== Proof.KBlocks1.lean ====
/-
  What the second dense stage leaves in its output array, as one function of the arrays it is entered with.

  The stage runs over the same 20 blocks of 5000 consecutive nodes as the first.  At block t it forms the hidden rows of
  nodes 5000·t … 5000·t + 4999 from the rows of its neighbour sums, features and per-node factor and from the whole
  weights and bias, multiplies them by the whole 64 × 2 projection matrix, and writes rows 5000·t … of the two-column
  projection array.  The blocks tile the 100000 rows, so the array ends holding, at node n and column q, the hidden
  row of n against column q of the projection matrix.
-/
import proofs.«155836_j7816840478969_2_alg».proof.Proof.KBlocks0

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

/-- THE PROJECTION ARRAY of the second stage: the hidden rows against the columns of the projection matrix `P`. -/
def projected (A X : S100000x64.Idx → EReal) (R : S100000x1.Idx → EReal) (Wl : S64x64.Idx → EReal) (B : S1x64.Idx → EReal)
    (Wr : S64x64.Idx → EReal) (P : S64x2.Idx → EReal) : S100000x2.Idx → EReal := fun i =>
  ∑ j : Fin 64, hidden A X R Wl B Wr (ix2 (i 0) j) * P (ix2 j (i 1))

/-- One block's stored value at a row of the block is the projection array at the node that row is, when the block's
    operands are the corresponding rows of the whole arrays. -/
theorem point_projected (x0 x1 : Vec Ideal S5000x64 .f32) (x2 : Vec Ideal S5000x1 .f32) (x3 x5 : Vec Ideal S64x64 .f32)
    (x4 : Vec Ideal S1x64 .f32) (x6 : Vec Ideal S64x2 .f32) (A X : S100000x64.Idx → EReal) (R : S100000x1.Idx → EReal)
    (Wl : S64x64.Idx → EReal) (B : S1x64.Idx → EReal) (Wr : S64x64.Idx → EReal) (P : S64x2.Idx → EReal) (T : ℕ) (hT : T < 20)
    (h0 : ∀ (p : Fin 5000) (k : Fin 64), x0 (ix2 p k) = A (ix2 (rowOf T hT p) k))
    (h1 : ∀ (p : Fin 5000) (k : Fin 64), x1 (ix2 p k) = X (ix2 (rowOf T hT p) k))
    (h2 : ∀ p : Fin 5000, x2 (ix2 p (0 : Fin 1)) = R (ix2 (rowOf T hT p) (0 : Fin 1)))
    (h3 : ∀ j k : Fin 64, x3 (ix2 j k) = Wl (ix2 j k)) (h4 : ∀ j : Fin 64, x4 (ix2 (0 : Fin 1) j) = B (ix2 (0 : Fin 1) j))
    (h5 : ∀ j k : Fin 64, x5 (ix2 j k) = Wr (ix2 j k)) (h6 : ∀ (j : Fin 64) (q : Fin 2), x6 (ix2 j q) = P (ix2 j q))
    (y : S5000x2.Idx) (i : S100000x2.Idx) (hi0 : (i 0).val = T * 5000 + (y 0).val) (hi1 : (i 1).val = (y 1).val) :
    k1_pay1 (F := Ideal) x0 x2 x1 x3 x5 x4 x6 y = projected A X R Wl B Wr P i := by
  obtain ⟨p, q, rfl⟩ : ∃ (p : Fin 5000) (q : Fin 2), y = ix2 p q := ⟨y 0, y 1, eq_ix2 y⟩
  obtain ⟨n, q', rfl⟩ : ∃ (n : Fin 100000) (q' : Fin 2), i = ix2 n q' := ⟨i 0, i 1, eq_ix2 i⟩
  have en : n = rowOf T hT p := Fin.ext hi0
  have eq' : q' = q := Fin.ext hi1
  subst en eq'
  rw [Cert.KernelIdeal.Pay.pay1_apply]
  show _ = ∑ j : Fin 64, Cert.Sage.layerMul _ _ _ _ _ _ (rowOf T hT p) j * P (ix2 j q')
  unfold Cert.Sage.layerMul
  simp only [h0, h1, h2, h3, h4, h5, h6]

/-! ## The stage's blocks as rows of the entry arrays -/

section Stage1

variable (V : (c : Dev nD) → (b : Ref sig .tc) → Buf (Elt Ideal) ((c : Thread nD τ).loc b))

/-- Where each window's block sits at each of the 20 points: the three node-indexed operands and the output at block
    row `t`, the weights, the bias and the projection matrix at the origin. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

theorem lt20' (t : Fin cfg1.N) : t.val < 20 := Nat.lt_of_lt_of_eq t.isLt N_1

/-- Block `t` of the neighbour sums is rows `5000·t …` of the array. -/
theorem blk1_0 (c : Dev nD) (t : Fin cfg1.N) (p : Fin 5000) (k : Fin 64) :
    (iblk1 V c 0 t : Vec Ideal S5000x64 .f32) (ix2 p k)
      = (V c main_v35 : S100000x64.Idx → EReal) (ix2 (rowOf t.val (lt20' t) p) k) := by
  obtain ⟨h0, h1, -⟩ := idx1 t
  unfold iblk1
  rw [View.read_apply]
  show V c main_v35 _ = V c main_v35 _
  congr 1
  funext a
  apply Fin.ext
  match a with
  | ⟨0, _⟩ => show win1_0.index t (0 : Fin 2) * 5000 + 1 * p.val = t.val * 5000 + p.val; rw [h0]; omega
  | ⟨1, _⟩ => show win1_0.index t (1 : Fin 2) * 64 + 1 * k.val = k.val; rw [h1]; omega

/-- Block `t` of the hidden features of the first stage. -/
theorem blk1_1 (c : Dev nD) (t : Fin cfg1.N) (p : Fin 5000) (k : Fin 64) :
    (iblk1 V c 1 t : Vec Ideal S5000x64 .f32) (ix2 p k)
      = (V c main_v25 : S100000x64.Idx → EReal) (ix2 (rowOf t.val (lt20' t) p) k) := by
  obtain ⟨-, -, h0, h1, -⟩ := idx1 t
  unfold iblk1
  rw [View.read_apply]
  show V c main_v25 _ = V c main_v25 _
  congr 1
  funext a
  apply Fin.ext
  match a with
  | ⟨0, _⟩ => show win1_1.index t (0 : Fin 2) * 5000 + 1 * p.val = t.val * 5000 + p.val; rw [h0]; omega
  | ⟨1, _⟩ => show win1_1.index t (1 : Fin 2) * 64 + 1 * k.val = k.val; rw [h1]; omega

/-- Block `t` of the per-node factor. -/
theorem blk1_2 (c : Dev nD) (t : Fin cfg1.N) (p : Fin 5000) :
    (iblk1 V c 2 t : Vec Ideal S5000x1 .f32) (ix2 p (0 : Fin 1))
      = (V c main_v13 : S100000x1.Idx → EReal) (ix2 (rowOf t.val (lt20' t) p) (0 : Fin 1)) := by
  obtain ⟨-, -, -, -, h0, h1, -⟩ := idx1 t
  unfold iblk1
  rw [View.read_apply]
  show V c main_v13 _ = V c main_v13 _
  congr 1
  funext a
  apply Fin.ext
  match a with
  | ⟨0, _⟩ => show win1_2.index t (0 : Fin 2) * 5000 + 1 * p.val = t.val * 5000 + p.val; rw [h0]; omega
  | ⟨1, _⟩ => show win1_2.index t (1 : Fin 2) * 1 + 1 * 0 = 0; rw [h1]

/-- The first weight is read whole at every point. -/
theorem blk1_3 (c : Dev nD) (t : Fin cfg1.N) (j k : Fin 64) :
    (iblk1 V c 3 t : Vec Ideal S64x64 .f32) (ix2 j k)
      = (V c main_arg5 : S64x64.Idx → EReal) (ix2 j k) := by
  obtain ⟨-, -, -, -, -, -, h0, h1, -⟩ := idx1 t
  unfold iblk1
  rw [View.read_apply]
  show V c main_arg5 _ = V c main_arg5 _
  congr 1
  funext a
  apply Fin.ext
  match a with
  | ⟨0, _⟩ => show win1_3.index t (0 : Fin 2) * 64 + 1 * j.val = j.val; rw [h0]; omega
  | ⟨1, _⟩ => show win1_3.index t (1 : Fin 2) * 64 + 1 * k.val = k.val; rw [h1]; omega

/-- The bias row is read whole at every point. -/
theorem blk1_4 (c : Dev nD) (t : Fin cfg1.N) (j : Fin 64) :
    (iblk1 V c 4 t : Vec Ideal S1x64 .f32) (ix2 (0 : Fin 1) j)
      = (V c main_v43 : S1x64.Idx → EReal) (ix2 (0 : Fin 1) j) := by
  obtain ⟨-, -, -, -, -, -, -, -, h0, h1, -⟩ := idx1 t
  unfold iblk1
  rw [View.read_apply]
  show V c main_v43 _ = V c main_v43 _
  congr 1
  funext a
  apply Fin.ext
  match a with
  | ⟨0, _⟩ => show win1_4.index t (0 : Fin 2) * 1 + 1 * 0 = 0; rw [h0]
  | ⟨1, _⟩ => show win1_4.index t (1 : Fin 2) * 64 + 1 * j.val = j.val; rw [h1]; omega

/-- The second weight is read whole at every point. -/
theorem blk1_5 (c : Dev nD) (t : Fin cfg1.N) (j k : Fin 64) :
    (iblk1 V c 5 t : Vec Ideal S64x64 .f32) (ix2 j k)
      = (V c main_arg7 : S64x64.Idx → EReal) (ix2 j k) := by
  obtain ⟨-, -, -, -, -, -, -, -, -, -, h0, h1, -⟩ := idx1 t
  unfold iblk1
  rw [View.read_apply]
  show V c main_arg7 _ = V c main_arg7 _
  congr 1
  funext a
  apply Fin.ext
  match a with
  | ⟨0, _⟩ => show win1_5.index t (0 : Fin 2) * 64 + 1 * j.val = j.val; rw [h0]; omega
  | ⟨1, _⟩ => show win1_5.index t (1 : Fin 2) * 64 + 1 * k.val = k.val; rw [h1]; omega

/-- The projection matrix is read whole at every point. -/
theorem blk1_6 (c : Dev nD) (t : Fin cfg1.N) (j : Fin 64) (q : Fin 2) :
    (iblk1 V c 6 t : Vec Ideal S64x2 .f32) (ix2 j q)
      = (V c main_v42 : S64x2.Idx → EReal) (ix2 j q) := by
  obtain ⟨-, -, -, -, -, -, -, -, -, -, -, -, h0, h1, -⟩ := idx1 t
  unfold iblk1
  rw [View.read_apply]
  show V c main_v42 _ = V c main_v42 _
  congr 1
  funext a
  apply Fin.ext
  match a with
  | ⟨0, _⟩ => show win1_6.index t (0 : Fin 2) * 64 + 1 * j.val = j.val; rw [h0]; omega
  | ⟨1, _⟩ => show win1_6.index t (1 : Fin 2) * 2 + 1 * q.val = q.val; rw [h1]; omega

/-- The projection array of the second stage, of the arrays the stage is entered with. -/
abbrev projected1 (c : Dev nD) : S100000x2.Idx → EReal :=
  projected (V c main_v35) (V c main_v25) (V c main_v13) (V c main_arg5) (V c main_v43) (V c main_arg7) (V c main_v42)

/-- WHAT POINT `t` WRITES BACK is block `t` of the projection array. -/
theorem flushed1 (c : Dev nD) (t : Fin cfg1.N) :
    (dat1 V c).flushed 7 t = ((cfg1.win 7).blk t).view.read (Elt Ideal) (projected1 V c) := by
  obtain ⟨-, -, -, -, -, -, -, -, -, -, -, -, -, -, h0, h1⟩ := idx1 t
  show (cfg1.win 7).cut (grid1.coords t) ((dat1 V c).after 7 t) = _
  rw [after1_7]
  unfold out1_7
  rw [View.canon_unit_zero hz]
  simp only [View.ld_unit_zero (S := S5000x64) hz, View.ld_unit_zero (S := S5000x1) hz,
    View.ld_unit_zero (S := S64x64) hz, View.ld_unit_zero (S := S1x64) hz, View.ld_unit_zero (S := S64x2) hz]
  funext y
  rw [View.read_apply]
  exact point_projected (iblk1 V c 0 t) (iblk1 V c 1 t) (iblk1 V c 2 t) (iblk1 V c 3 t) (iblk1 V c 5 t) (iblk1 V c 4 t)
    (iblk1 V c 6 t)
    (V c main_v35) (V c main_v25) (V c main_v13) (V c main_arg5) (V c main_v43) (V c main_arg7) (V c main_v42) t.val (lt20' t)
    (blk1_0 V c t) (blk1_1 V c t) (blk1_2 V c t) (blk1_3 V c t) (blk1_4 V c t) (blk1_5 V c t) (blk1_6 V c t) y
    (((cfg1.win 7).blk t).view.emb y)
    (by show win1_7.index t (0 : Fin 2) * 5000 + 1 * (y 0).val = t.val * 5000 + (y 0).val; rw [h0]; omega)
    (by show win1_7.index t (1 : Fin 2) * 2 + 1 * (y 1).val = (y 1).val; rw [h1]; omega)

/-- Every node's row lies in the block of the point `n / 5000`. -/
theorem cover1 (i : S100000x2.Idx) :
    ∃ t : Fin cfg1.N, (cfg1.win 7).flush t = true ∧ i ∈ ((cfg1.win 7).blk t).view.set := by
  have hi0 : (i 0).val < 100000 := (i 0).isLt
  have hi1 : (i 1).val < 2 := (i 1).isLt
  have hN : cfg1.N = 20 := N_1
  let t : Fin cfg1.N := ⟨(i 0).val / 5000, by rw [hN]; omega⟩
  obtain ⟨-, -, -, -, -, -, -, -, -, -, -, -, -, -, h0, h1⟩ := idx1 t
  have ht : t.val = (i 0).val / 5000 := rfl
  refine ⟨t, flush1_7 t, ?_⟩
  show i ∈ ((View.whole main_v44).slice (win1_7.rect t)).set
  rw [View.set_slice_whole, Rect.mem_set_unit]
  intro a
  match a with
  | ⟨0, _⟩ =>
    show win1_7.index t (0 : Fin 2) * 5000 ≤ (i 0).val ∧ (i 0).val < win1_7.index t (0 : Fin 2) * 5000 + 5000
    rw [h0, ht]; omega
  | ⟨1, _⟩ =>
    show win1_7.index t (1 : Fin 2) * 2 ≤ (i 1).val ∧ (i 1).val < win1_7.index t (1 : Fin 2) * 2 + 2
    rw [h1]; omega

/-- THE PROJECTION ARRAY AFTER THE SECOND STAGE is `projected1` of the entry arrays. -/
theorem final1 (c : Dev nD) : (dat1 V c).arrAt 7 cfg1.N = projected1 V c :=
  (dat1 V c).arrAt_eq_of_cover 7 (projected1 V c) (fun t _ => flushed1 V c t) (cover1)

end Stage1

end Cert.KernelIdeal.Blocks

end
-- ==== Proof.KTerms.lean ====
/-
  The host-side stretches of the program around the two dense stages, as functions of arrays.

  From the edge list (two rows of 1600000 integers: sources and destinations) the program forms, once,
    * the SOURCE and DESTINATION integers of every edge, and for a gather the integer with a negative value wrapped
      round by the number of nodes (a gather then clamps it into range; an accumulating scatter drops what is out of range);
    * the per-node FACTOR 1 / max(c, 1), where c counts the edges pointing at the node — counted in integers and then
      converted —, as a column;
  and for any node array Y the NEIGHBOUR SUMS: the rows of Y gathered at the edges' sources and accumulated at their
  destinations.  The bias vectors are read as rows, the 128 scorer weights as a 64 × 2 matrix whose columns are the two
  halves, and the final score of an edge is the first projection column at its source plus the second at its
  destination plus the scorer's bias.
-/
import proofs.«155836_j7816840478969_2_alg».proof.KernelIdeal
import proofs.«155836_j7816840478969_2_alg».proof.Proof.Gen.KernelIdeal
import Idealize.ShloMosaic.PureOps.Ideal

noncomputable section

namespace Cert.KernelIdeal.Terms

open Cert.KernelIdeal Cert.KernelIdeal.Facts₀ Cert.KernelIdeal.Facts Idealize.ShloMosaic

/-- The edges' source integers: row 0 of the edge list. -/
def srcOf (x1 : IVec S2x1600000 32) : IVec S1600000 32 :=
  shapeCast S1600000 (extractStridedSlice S1x1600000 ![0, 0] x1 slices_S2x1600000_S1x1600000_0_0) shapeCasts_S1x1600000_S1600000

/-- The edges' destination integers: row 1 of the edge list. -/
def dstOf (x1 : IVec S2x1600000 32) : IVec S1600000 32 :=
  shapeCast S1600000 (extractStridedSlice S1x1600000 ![1, 0] x1 slices_S2x1600000_S1x1600000_1_0) shapeCasts_S1x1600000_S1600000

/-- Integers as a column of start indices, a negative one first wrapped round by the number of nodes. -/
def wrapIdx (v : IVec S1600000 32) : IVec S1600000x1 32 :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 100000#32))) v)

/-- Integers as a column of scatter indices, as they are. -/
def colIdx (v : IVec S1600000 32) : IVec S1600000x1 32 :=
  broadcastInDim S1600000x1 ![0] bcast_S1600000_S1600000x1_0 v

/-- The neighbour sums of a node array: its rows gathered at the sources, accumulated at the destinations. -/
def aggOf (Y : FVec Ideal S100000x64 .f32) (x1 : IVec S2x1600000 32) : FVec Ideal S100000x64 .f32 :=
  Host.scatterAdd scatter_S100000x64_S1600000x1_S1600000x64_1_0_0_1
    (broadcastInDim S100000x64 ![] bcast_S_S100000x64 (constant S_ .f32 0x00000000#32))
    (colIdx (dstOf x1))
    (Host.gather gather_S100000x64_S1600000x1_S1600000x64_1_0_n_n_0_1_164 Y (wrapIdx (srcOf x1)))

/-- The in-degree counted in integers: ones accumulated at the destinations. -/
def degI (x1 : IVec S2x1600000 32) : IVec S100000 32 :=
  Host.scatter scatter_S100000_S1600000x1_S1600000_n_0_0_1 IntOp.addi
    (broadcastInDim S100000 ![] bcast_S_S100000 (constantI S_ 32 0#32))
    (colIdx (dstOf x1))
    (broadcastInDim S1600000 ![] bcast_S_S1600000 (constantI S_ 32 1#32))

/-- The per-node factor 1 / max(in-degree, 1), as a column. -/
def invOf (x1 : IVec S2x1600000 32) : FVec Ideal S100000x1 .f32 :=
  shapeCast S100000x1
    (Host.divf (broadcastInDim S100000 ![] bcast_S_S100000 (constant (F := Ideal) S_ .f32 0x3F800000#32))
      (maximumf (sitofp .f32 (degI x1))
        (broadcastInDim S100000 ![] bcast_S_S100000 (constant (F := Ideal) S_ .f32 0x3F800000#32))))
    shapeCasts_S100000_S100000x1

/-- A bias vector as a row. -/
def biasRow (b : FVec Ideal S64 .f32) : FVec Ideal S1x64 .f32 := shapeCast S1x64 b shapeCasts_S64_S1x64

/-- The scorer's 128 weights as a 64 × 2 matrix: the first half in column 0, the second half in column 1. -/
def wcatOf (x8 : FVec Ideal S1x128 .f32) : FVec Ideal S64x2 .f32 :=
  concatenate S64x2 1
    [⟨S64x1, broadcastInDim S64x1 ![0] bcast_S64_S64x1_0
        (shapeCast S64 (extractStridedSlice S1x64 ![0, 0] x8 slices_S1x128_S1x64_0_0) shapeCasts_S1x64_S64)⟩,
     ⟨S64x1, broadcastInDim S64x1 ![0] bcast_S64_S64x1_0
        (shapeCast S64 (extractStridedSlice S1x64 ![0, 64] x8 slices_S1x128_S1x64_0_64) shapeCasts_S1x64_S64)⟩]
    concatenates_S64x1_S64x1_S64x2_d1

/-- The scores: projection column 0 at the source plus column 1 at the destination plus the bias. -/
def outOf (S : FVec Ideal S100000x2 .f32) (x1 : IVec S2x1600000 32) (x9 : FVec Ideal S1 .f32) : FVec Ideal S1600000 .f32 :=
  addf
    (addf
      (Host.gather gather_S100000_S1600000x1_S1600000_n_0_n_n_0_1_1
        (shapeCast S100000 (extractStridedSlice S100000x1 ![0, 0] S slices_S100000x2_S100000x1_0_0) shapeCasts_S100000x1_S100000)
        (wrapIdx (srcOf x1)))
      (Host.gather gather_S100000_S1600000x1_S1600000_n_0_n_n_0_1_1
        (shapeCast S100000 (extractStridedSlice S100000x1 ![0, 1] S slices_S100000x2_S100000x1_0_1) shapeCasts_S100000x1_S100000)
        (wrapIdx (dstOf x1))))
    (broadcastInDim S1600000 ![] bcast_S_S1600000 (shapeCast S_ x9 shapeCasts_S1_S_))

end Cert.KernelIdeal.Terms

end
-- ==== Proof.KHost.lean ====
/-
  The contents of the buffers at the boundaries of the program's five segments, as the host-side functions of the
  argument arrays.

  Before the first dense stage the host forms the neighbour sums of the node features, the per-node factor and the bias
  row; the stage leaves the hidden features.  Before the second stage the host forms the neighbour sums of the hidden
  features, the second bias row and the 64 × 2 projection matrix; the stage leaves the two projection columns.  The last
  stretch gathers the columns at the edges' ends and adds the scorer's bias.  Every buffer a segment does not write keeps
  what it held, so each boundary's contents walk back to the argument arrays.
-/
import proofs.«155836_j7816840478969_2_alg».proof.Proof.KRun
import proofs.«155836_j7816840478969_2_alg».proof.Proof.KBlocks1
import proofs.«155836_j7816840478969_2_alg».proof.Proof.KTerms
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.StableHlo
open Idealize.ShloMosaic.Pipeline (Dat)

namespace Cert.KernelIdeal.Host

open Cert.KernelIdeal Cert.KernelIdeal.Facts₀ Cert.KernelIdeal.Facts Cert.KernelIdeal.Gen Cert.KernelIdeal.Terms
  Cert.KernelIdeal.Blocks

variable (m : (ℓ : Loc nD τ sig) → Buf (Elt Ideal) ℓ) (ρ : Dev nD → PrngReg)

/-- The argument arrays on device `c`. -/
abbrev a0 (c : Dev nD) : FVec Ideal S100000x64 .f32 := m ((c : Thread nD τ).loc main_arg0)
abbrev a1 (c : Dev nD) : IVec S2x1600000 32 := m ((c : Thread nD τ).loc main_arg1)
abbrev a2 (c : Dev nD) : FVec Ideal S64x64 .f32 := m ((c : Thread nD τ).loc main_arg2)
abbrev a3 (c : Dev nD) : FVec Ideal S64 .f32 := m ((c : Thread nD τ).loc main_arg3)
abbrev a4 (c : Dev nD) : FVec Ideal S64x64 .f32 := m ((c : Thread nD τ).loc main_arg4)
abbrev a5 (c : Dev nD) : FVec Ideal S64x64 .f32 := m ((c : Thread nD τ).loc main_arg5)
abbrev a6 (c : Dev nD) : FVec Ideal S64 .f32 := m ((c : Thread nD τ).loc main_arg6)
abbrev a7 (c : Dev nD) : FVec Ideal S64x64 .f32 := m ((c : Thread nD τ).loc main_arg7)
abbrev a8 (c : Dev nD) : FVec Ideal S1x128 .f32 := m ((c : Thread nD τ).loc main_arg8)
abbrev a9 (c : Dev nD) : FVec Ideal S1 .f32 := m ((c : Thread nD τ).loc main_arg9)

/-! ## Entering the first stage -/

theorem v1_agg (c : Dev nD) : (V1 m ρ c main_v23 : S100000x64.Idx → EReal) = aggOf (a0 m c) (a1 m c) := by
  dsimp only [V1, W1]
  after_results_simp
  rfl

theorem v1_inv (c : Dev nD) : (V1 m ρ c main_v13 : S100000x1.Idx → EReal) = invOf (a1 m c) := by
  dsimp only [V1, W1]
  after_results_simp
  rfl

theorem v1_bias (c : Dev nD) : (V1 m ρ c main_v24 : S1x64.Idx → EReal) = biasRow (a3 m c) := by
  dsimp only [V1, W1]
  after_results_simp
  rfl

theorem v1_x (c : Dev nD) : (V1 m ρ c main_arg0 : S100000x64.Idx → EReal) = a0 m c := by
  dsimp only [V1, W1]
  after_results_simp

theorem v1_wl (c : Dev nD) : (V1 m ρ c main_arg2 : S64x64.Idx → EReal) = a2 m c := by
  dsimp only [V1, W1]
  after_results_simp

theorem v1_wr (c : Dev nD) : (V1 m ρ c main_arg4 : S64x64.Idx → EReal) = a4 m c := by
  dsimp only [V1, W1]
  after_results_simp

/-! ## Leaving the first stage -/

/-- The hidden features of the first stage, of the argument arrays. -/
abbrev h1 (c : Dev nD) : S100000x64.Idx → EReal :=
  hidden (aggOf (a0 m c) (a1 m c)) (a0 m c) (invOf (a1 m c)) (a2 m c) (biasRow (a3 m c)) (a4 m c)

theorem w2_h1 (c : Dev nD) : (W2 m ρ c (Proc.devRef .tc main_v25) : S100000x64.Idx → EReal) = h1 m c := by
  refine (W2_arr m ρ c 6).trans ((final0 (V1 m ρ) c).trans ?_)
  unfold hidden0 h1
  rw [v1_agg, v1_inv, v1_bias, v1_x, v1_wl, v1_wr]

theorem w2_inv (c : Dev nD) : (W2 m ρ c (Proc.devRef .tc main_v13) : S100000x1.Idx → EReal) = invOf (a1 m c) :=
  (W2_arr m ρ c 2).trans (((dat0 (V1 m ρ) c).arrAt_in 2 rfl _).trans ((A_eq0 (V1 m ρ) c 2).trans (v1_inv m ρ c)))

theorem w2_src (c : Dev nD) : (W2 m ρ c (Proc.devRef .tc main_v1) : S1600000.Idx → BitVec 32) = srcOf (a1 m c) := by
  refine (W2_of_ne m ρ c main_v1 (by decide)).trans ?_
  dsimp only [W1]
  after_results_simp
  rfl

theorem w2_dst (c : Dev nD) : (W2 m ρ c (Proc.devRef .tc main_v3) : S1600000.Idx → BitVec 32) = dstOf (a1 m c) := by
  refine (W2_of_ne m ρ c main_v3 (by decide)).trans ?_
  dsimp only [W1]
  after_results_simp
  rfl

theorem w2_a5 (c : Dev nD) : (W2 m ρ c (Proc.devRef .tc main_arg5) : S64x64.Idx → EReal) = a5 m c := by
  refine (W2_of_ne m ρ c main_arg5 (by decide)).trans ?_
  dsimp only [W1]
  after_results_simp

theorem w2_a6 (c : Dev nD) : (W2 m ρ c (Proc.devRef .tc main_arg6) : S64.Idx → EReal) = a6 m c := by
  refine (W2_of_ne m ρ c main_arg6 (by decide)).trans ?_
  dsimp only [W1]
  after_results_simp

theorem w2_a7 (c : Dev nD) : (W2 m ρ c (Proc.devRef .tc main_arg7) : S64x64.Idx → EReal) = a7 m c := by
  refine (W2_of_ne m ρ c main_arg7 (by decide)).trans ?_
  dsimp only [W1]
  after_results_simp

theorem w2_a8 (c : Dev nD) : (W2 m ρ c (Proc.devRef .tc main_arg8) : S1x128.Idx → EReal) = a8 m c := by
  refine (W2_of_ne m ρ c main_arg8 (by decide)).trans ?_
  dsimp only [W1]
  after_results_simp

theorem w2_a9 (c : Dev nD) : (W2 m ρ c (Proc.devRef .tc main_arg9) : S1.Idx → EReal) = a9 m c := by
  refine (W2_of_ne m ρ c main_arg9 (by decide)).trans ?_
  dsimp only [W1]
  after_results_simp

/-! ## Entering the second stage -/

theorem v3_agg (c : Dev nD) : (V3 m ρ c main_v35 : S100000x64.Idx → EReal) = aggOf (h1 m c) (a1 m c) := by
  dsimp only [V3, W3]
  after_results_simp
  rw [w2_h1, w2_src, w2_dst]
  rfl

theorem v3_h1 (c : Dev nD) : (V3 m ρ c main_v25 : S100000x64.Idx → EReal) = h1 m c := by
  dsimp only [V3, W3]
  after_results_simp
  exact w2_h1 m ρ c

theorem v3_inv (c : Dev nD) : (V3 m ρ c main_v13 : S100000x1.Idx → EReal) = invOf (a1 m c) := by
  dsimp only [V3, W3]
  after_results_simp
  exact w2_inv m ρ c

theorem v3_wl (c : Dev nD) : (V3 m ρ c main_arg5 : S64x64.Idx → EReal) = a5 m c := by
  dsimp only [V3, W3]
  after_results_simp
  exact w2_a5 m ρ c

theorem v3_wr (c : Dev nD) : (V3 m ρ c main_arg7 : S64x64.Idx → EReal) = a7 m c := by
  dsimp only [V3, W3]
  after_results_simp
  exact w2_a7 m ρ c

theorem v3_bias (c : Dev nD) : (V3 m ρ c main_v43 : S1x64.Idx → EReal) = biasRow (a6 m c) := by
  dsimp only [V3, W3]
  after_results_simp
  rw [w2_a6]
  rfl

end Cert.KernelIdeal.Host

end
-- ==== Proof.KHost2.lean ====
/-
  The second stage's entry and exit, and the program's result, as functions of the argument arrays.

  The 64 × 2 projection matrix is the two halves of the scorer's weights, each read as a column, side by side.  The
  second stage leaves the hidden rows of the second layer projected on those two columns; the last host stretch reads
  column 0 at each edge's source and column 1 at its destination and adds the scorer's bias.  The edge integers and the
  bias reach that stretch unchanged: neither a dense stage nor a host stretch in between writes them.
-/
import proofs.«155836_j7816840478969_2_alg».proof.Proof.KHost

set_option maxRecDepth 16384

noncomputable section

open Idealize.ShloMosaic Idealize.ShloMosaic.TcCoe Idealize.SL.Sem Idealize.ShloMosaic.ValueIdx
open Idealize.ShloMosaic.StableHlo
open Idealize.ShloMosaic.Pipeline (Dat)

namespace Cert.KernelIdeal.Host

open Cert.KernelIdeal Cert.KernelIdeal.Facts₀ Cert.KernelIdeal.Facts Cert.KernelIdeal.Gen Cert.KernelIdeal.Terms
  Cert.KernelIdeal.Blocks

variable (m : (ℓ : Loc nD τ sig) → Buf (Elt Ideal) ℓ) (ρ : Dev nD → PrngReg)

theorem v3_wcat (c : Dev nD) : (V3 m ρ c main_v42 : S64x2.Idx → EReal) = wcatOf (a8 m c) := by
  dsimp only [V3, W3]
  simp only [after_cons, after_nil]
  rw [reshape_result_ne]; rotate_left; decide
  rw [binary_result]
  unfold wcatOf
  refine congrArg₂ (fun u v => concatenate S64x2 1 [⟨S64x1, u⟩, ⟨S64x1, v⟩] Facts₀.concatenates_S64x1_S64x1_S64x2_d1) ?_ ?_
  · after_results_simp
    rw [w2_a8]
    rfl
  · after_results_simp
    rw [w2_a8]
    rfl

/-! ## Leaving the second stage -/

/-- The two projection columns, of the argument arrays. -/
abbrev s2 (c : Dev nD) : S100000x2.Idx → EReal :=
  projected (aggOf (h1 m c) (a1 m c)) (h1 m c) (invOf (a1 m c)) (a5 m c) (biasRow (a6 m c)) (a7 m c) (wcatOf (a8 m c))

theorem w4_s2 (c : Dev nD) : (W4 m ρ c (Proc.devRef .tc main_v44) : S100000x2.Idx → EReal) = s2 m c := by
  refine (W4_arr m ρ c 7).trans ((final1 (V3 m ρ) c).trans ?_)
  unfold projected1 s2
  rw [v3_agg, v3_h1, v3_inv, v3_wl, v3_bias, v3_wr, v3_wcat]

theorem w3_src (c : Dev nD) : (W3 m ρ c (Proc.devRef .tc main_v1) : S1600000.Idx → BitVec 32) = srcOf (a1 m c) := by
  dsimp only [W3]
  after_results_simp
  exact w2_src m ρ c

theorem w3_dst (c : Dev nD) : (W3 m ρ c (Proc.devRef .tc main_v3) : S1600000.Idx → BitVec 32) = dstOf (a1 m c) := by
  dsimp only [W3]
  after_results_simp
  exact w2_dst m ρ c

theorem w3_a9 (c : Dev nD) : (W3 m ρ c (Proc.devRef .tc main_arg9) : S1.Idx → EReal) = a9 m c := by
  dsimp only [W3]
  after_results_simp
  exact w2_a9 m ρ c

/-! ## The result -/

theorem w5_out (c : Dev nD) : (W5 m ρ c (Proc.devRef .tc main_v66) : S1600000.Idx → EReal) = outOf (s2 m c) (a1 m c) (a9 m c) := by
  dsimp only [W5]
  after_results_simp
  rw [W4_of_ne m ρ c main_v1 (by decide), W4_of_ne m ρ c main_v3 (by decide), W4_of_ne m ρ c main_arg9 (by decide),
    w3_src, w3_dst, w3_a9, w4_s2]
  rfl

end Cert.KernelIdeal.Host

end
-- ==== Proof.LibEdgeGatherScatter.lean ====
/-
  Gathers and accumulating scatters keyed by ONE integer per edge, in two layouts. Independent of any program.

  An edge list of length `E` carries, per edge `e`, one integer `idx[e, 0]` (the start indices have shape `[E, 1]`).

  1. GATHER.  Rows of a matrix `x : [N, D]` taken at the edges' integers (`x[idx]`: offset axis 1, collapsed axis 0,
     slices `[1, D]`) give `[E, D]`, whose element `(e, c)` is `x` at row `clampRow idx e` — the integer read signed
     and clamped into `[0, N − 1]`, as the gather clamps every start index — and column `c`.  The same integers taken
     along the MIDDLE axis of `x : [B, N, D]` (`x[:, idx, :]`: offset axes 0 and 2, collapsed axis 1, slices
     `[B, 1, D]`) give `[B, E, D]`, whose element `(b, e, o)` is `x` at `(b, clampRow idx e, o)`.

  2. ACCUMULATING SCATTER over the extended reals.  Updates `[E, D]` added into `x : [N, D]` at the rows the edges'
     integers name (window axis 1, inserted axis 0) leave at `(n, c)` the value `x (n, c)` plus the sum, over the edges
     whose integer, read signed, IS `n`, of the update at `(e, c)`; an edge whose integer is outside `[0, N)` lands
     nowhere.  Updates `[B, E, D]` added into `x : [B, N, D]` along the middle axis (window axes 0 and 2, inserted
     axis 1) leave at `(b, n, o)` the value `x (b, n, o)` plus the sum over the same edges of the update at `(b, e, o)`.
     In both layouts the sum ranges over the SAME set of edges, which is what lets a scatter over a matrix whose rows
     pack `B` blocks of width `O` be compared with the scatter over the unpacked `[B, N, O]` array.
-/
import Idealize.ShloMosaic.Lib.ValueIdx
import Idealize.ShloMosaic.PureOps.Ideal

noncomputable section

namespace Cert.Lib

open Idealize.ShloMosaic Idealize.ShloMosaic.ValueIdx

/-! ## The row an edge's integer selects -/

/-- The row of an `N`-row operand that edge `e` reads: its integer `idx[e, 0]`, signed, clamped into `[0, N − 1]`. -/
def clampRow {E w : Nat} (N : Nat) (hN : 0 < N) (idx : IVec ⟨2, ![E, 1]⟩ w) (e : Fin E) : Fin N :=
  ⟨min (idx (ix2 e (0 : Fin 1))).toInt.toNat (N - 1), by omega⟩

/-! ## Gathers -/

section Gather
variable {α : Type}

/-- The dimension numbers of `x[idx]` for an operand `[N, D]`, start indices `[E, 1]` and result `[E, D]`. -/
abbrev rowGatherDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- ROWS OF A MATRIX at `(e, c)`: the operand at row `clampRow idx e`, column `c`. -/
theorem gather_rows_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (c : Fin D) :
    Host.gather (rowGatherDims N D E wf) x idx (ix2 e c) = x (ix2 (clampRow N hN idx e) c) := by
  unfold Host.gather
  congr 1
  funext a
  refine Fin.ext ?_
  match a with
  | ⟨0, _⟩ =>
    show (rowGatherDims N D E wf).start (ix2 e c) idx 0 + (rowGatherDims N D E wf).batchCoord (ix2 e c) 0
        + (rowGatherDims N D E wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N D E wf).startIndexMap from List.mem_singleton.mpr rfl)]
    have hsi : (rowGatherDims N D E wf).siIdx (ix2 e c) ⟨List.idxOf (0 : Fin 2) (rowGatherDims N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N D E wf).start (ix2 e c) idx 1 + (rowGatherDims N D E wf).batchCoord (ix2 e c) 1
        + (rowGatherDims N D E wf).offCoord (ix2 e c) 1 = _
    rw [GatherDims.batchCoord_eq_zero _ _ _ List.not_mem_nil]
    unfold GatherDims.start
    rw [dif_neg (show ¬ (1 : Fin 2) ∈ ([0] : List (Fin 2)) from by decide)]
    have hk : (1 : Fin 2) ∈ (rowGatherDims N D E wf).sKept :=
      (GatherDims.mem_sKept _ _).mpr ⟨(show ¬ (1 : Fin 2) ∈ ([0] : List (Fin 2)) from by decide), List.not_mem_nil⟩
    unfold GatherDims.offCoord
    rw [dif_pos hk]
    simp only [Nat.zero_add, Nat.add_zero]
    rfl

/-- The dimension numbers of `x[:, idx, :]` for an operand `[B, N, D]`, start indices `[E, 1]` and result
    `[B, E, D]`. -/
abbrev midGatherDims (B N D E : Nat)
    (wf : GatherDims.WF ⟨3, ![B, N, D]⟩ ⟨2, ![E, 1]⟩ ⟨3, ![B, E, D]⟩ [0, 2] [1] [] [1] [] 1 ![B, 1, D]) :
    GatherDims ⟨3, ![B, N, D]⟩ ⟨2, ![E, 1]⟩ ⟨3, ![B, E, D]⟩ where
  offsetDims := [0, 2]
  collapsedSliceDims := [1]
  operandBatchingDims := []
  startIndicesBatchingDims := []
  startIndexMap := [1]
  indexVectorDim := 1
  sliceSizes := ![B, 1, D]
  wf := wf

/-- THE MIDDLE AXIS OF A RANK-3 ARRAY at `(b, e, o)`: the operand at `(b, clampRow idx e, o)`. -/
theorem gather_mid_apply {B N D E w : Nat} (hN : 0 < N)
    (wf : GatherDims.WF ⟨3, ![B, N, D]⟩ ⟨2, ![E, 1]⟩ ⟨3, ![B, E, D]⟩ [0, 2] [1] [] [1] [] 1 ![B, 1, D])
    (x : (⟨3, ![B, N, D]⟩ : Shape).Idx → α) (idx : IVec ⟨2, ![E, 1]⟩ w) (b : Fin B) (e : Fin E) (o : Fin D) :
    Host.gather (midGatherDims B N D E wf) x idx (ix3 b e o) = x (ix3 b (clampRow N hN idx e) o) := by
  unfold Host.gather
  congr 1
  funext a
  refine Fin.ext ?_
  match a with
  | ⟨0, _⟩ =>
    show (midGatherDims B N D E wf).start (ix3 b e o) idx 0 + (midGatherDims B N D E wf).batchCoord (ix3 b e o) 0
        + (midGatherDims B N D E wf).offCoord (ix3 b e o) 0 = _
    rw [GatherDims.batchCoord_eq_zero _ _ _ List.not_mem_nil]
    unfold GatherDims.start
    rw [dif_neg (show ¬ (0 : Fin 3) ∈ ([1] : List (Fin 3)) from by decide)]
    have hk : (0 : Fin 3) ∈ (midGatherDims B N D E wf).sKept :=
      (GatherDims.mem_sKept _ _).mpr ⟨(show ¬ (0 : Fin 3) ∈ ([1] : List (Fin 3)) from by decide), List.not_mem_nil⟩
    unfold GatherDims.offCoord
    rw [dif_pos hk]
    simp only [Nat.zero_add, Nat.add_zero]
    rfl
  | ⟨1, _⟩ =>
    show (midGatherDims B N D E wf).start (ix3 b e o) idx 1 + (midGatherDims B N D E wf).batchCoord (ix3 b e o) 1
        + (midGatherDims B N D E wf).offCoord (ix3 b e o) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (midGatherDims B N D E wf).startIndexMap from List.mem_singleton.mpr rfl)]
    have hsi : (midGatherDims B N D E wf).siIdx (ix3 b e o) ⟨List.idxOf (1 : Fin 3) (midGatherDims B N D E wf).startIndexMap,
        List.idxOf_lt_length_iff.2 (List.mem_singleton.mpr rfl)⟩ = ix2 e (0 : Fin 1) := by
      funext b'; refine Fin.ext ?_
      match b' with
      | ⟨0, _⟩ => rfl
      | ⟨1, _⟩ => rfl
    rw [hsi]
    rfl
  | ⟨2, _⟩ =>
    show (midGatherDims B N D E wf).start (ix3 b e o) idx 2 + (midGatherDims B N D E wf).batchCoord (ix3 b e o) 2
        + (midGatherDims B N D E wf).offCoord (ix3 b e o) 2 = _
    rw [GatherDims.batchCoord_eq_zero _ _ _ List.not_mem_nil]
    unfold GatherDims.start
    rw [dif_neg (show ¬ (2 : Fin 3) ∈ ([1] : List (Fin 3)) from by decide)]
    have hk : (2 : Fin 3) ∈ (midGatherDims B N D E wf).sKept :=
      (GatherDims.mem_sKept _ _).mpr ⟨(show ¬ (2 : Fin 3) ∈ ([1] : List (Fin 3)) from by decide), List.not_mem_nil⟩
    unfold GatherDims.offCoord
    rw [dif_pos hk]
    simp only [Nat.zero_add, Nat.add_zero]
    rfl

end Gather

/-! ## Accumulating scatters over the extended reals -/

section Scatter

/-- An operand axis receives a window coordinate exactly when it is not an inserted axis. -/
theorem mem_sKept_iff {s si u : Shape} (d : ScatterDims s si u) (a : Fin s.rank) :
    a ∈ d.sKept ↔ a ∉ d.insertedWindowDims := by
  simp [ScatterDims.sKept, Shape.kept, List.mem_filter, List.mem_finRange]

/-! ### Rows of a matrix -/

/-- The dimension numbers of `x.at[idx].add(upd)` for an operand `[N, D]`, scatter indices `[E, 1]` and updates
    `[E, D]`. -/
abbrev rowScatterDims (N D E : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

section Rows
variable {N D E w : Nat} (wf : ScatterDims.WF ⟨2, ![N, D]⟩ ⟨2, ![E, 1]⟩ ⟨2, ![E, D]⟩ [1] [0] [0] 1)
  (idx : IVec ⟨2, ![E, 1]⟩ w)

/-- On the row axis the window of update `(e, c)` starts at edge `e`'s integer, read signed, … -/
theorem rowScatter_start0 (e : Fin E) (c : Fin D) :
    (rowScatterDims N D E wf).start (ix2 e c) idx 0 = (idx (ix2 e (0 : Fin 1))).toInt := by
  unfold ScatterDims.start
  rw [dif_pos (show (0 : Fin 2) ∈ (rowScatterDims N D E wf).scatterDimsToOperandDims from List.mem_singleton.mpr rfl)]
  have hsi : (rowScatterDims N D E wf).siIdx (ix2 e c) ⟨List.idxOf (0 : Fin 2) (rowScatterDims N D E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- … and on the column axis at zero. -/
theorem rowScatter_start1 (j : (⟨2, ![E, D]⟩ : Shape).Idx) : (rowScatterDims N D E wf).start j idx 1 = 0 := by
  unfold ScatterDims.start
  rw [dif_neg (show ¬ (1 : Fin 2) ∈ ([0] : List (Fin 2)) from by decide)]

/-- The window coordinate is zero on the row axis … -/
theorem rowScatter_window0 (j : (⟨2, ![E, D]⟩ : Shape).Idx) : (rowScatterDims N D E wf).window j 0 = 0 := by
  unfold ScatterDims.window
  rw [dif_neg (fun h => ((mem_sKept_iff _ _).mp h) (List.mem_singleton.mpr rfl))]

/-- … and the update's column on the column axis. -/
theorem rowScatter_window1 (e : Fin E) (c : Fin D) : (rowScatterDims N D E wf).window (ix2 e c) 1 = c.val := by
  have hk : (1 : Fin 2) ∈ (rowScatterDims N D E wf).sKept :=
    (mem_sKept_iff _ _).mpr (show ¬ (1 : Fin 2) ∈ ([0] : List (Fin 2)) from by decide)
  unfold ScatterDims.window
  rw [dif_pos hk]
  rfl

/-- WHERE UPDATE `(e, c)` LANDS: at `(n, c')` exactly when edge `e`'s integer, read signed, is `n` and the columns agree. -/
theorem rowScatter_resultIdx_iff (e : Fin E) (c : Fin D) (n : Fin N) (c' : Fin D) :
    (rowScatterDims N D E wf).resultIdx? (ix2 e c) idx = some (ix2 n c')
      ↔ (idx (ix2 e (0 : Fin 1))).toInt = (n.val : Int) ∧ c = c' := by
  have h0 : (rowScatterDims N D E wf).start (ix2 e c) idx 0 + ((rowScatterDims N D E wf).window (ix2 e c) 0 : Int)
      = (idx (ix2 e (0 : Fin 1))).toInt := by
    rw [rowScatter_start0, rowScatter_window0]; simp
  have h1 : (rowScatterDims N D E wf).start (ix2 e c) idx 1 + ((rowScatterDims N D E wf).window (ix2 e c) 1 : Int)
      = (c.val : Int) := by
    rw [rowScatter_start1, rowScatter_window1]; simp
  constructor
  · intro hs
    unfold ScatterDims.resultIdx? at hs
    split at hs
    · rename_i h
      have hf := Option.some.inj hs
      have e0 : ((rowScatterDims N D E wf).start (ix2 e c) idx 0 + ((rowScatterDims N D E wf).window (ix2 e c) 0 : Int)).toNat
          = n.val := congrArg Fin.val (congrFun hf 0)
      have e1 : ((rowScatterDims N D E wf).start (ix2 e c) idx 1 + ((rowScatterDims N D E wf).window (ix2 e c) 1 : Int)).toNat
          = c'.val := congrArg Fin.val (congrFun hf 1)
      have b0 : 0 ≤ (rowScatterDims N D E wf).start (ix2 e c) idx 0 + ((rowScatterDims N D E wf).window (ix2 e c) 0 : Int) :=
        (h 0).1
      rw [h0] at e0 b0
      rw [h1] at e1
      exact ⟨by omega, Fin.ext (by omega)⟩
    · exact absurd hs (by simp)
  · rintro ⟨hr, rfl⟩
    have hn : n.val < N := n.isLt
    have hc : c.val < D := c.isLt
    have h : ∀ a, 0 ≤ (rowScatterDims N D E wf).start (ix2 e c) idx a + ((rowScatterDims N D E wf).window (ix2 e c) a : Int)
        ∧ (rowScatterDims N D E wf).start (ix2 e c) idx a + ((rowScatterDims N D E wf).window (ix2 e c) a : Int)
          < ((⟨2, ![N, D]⟩ : Shape).size a : Int) := by
      intro a
      match a with
      | ⟨0, _⟩ =>
        show 0 ≤ (rowScatterDims N D E wf).start (ix2 e c) idx 0 + ((rowScatterDims N D E wf).window (ix2 e c) 0 : Int)
          ∧ (rowScatterDims N D E wf).start (ix2 e c) idx 0 + ((rowScatterDims N D E wf).window (ix2 e c) 0 : Int) < (N : Int)
        rw [h0, hr]; omega
      | ⟨1, _⟩ =>
        show 0 ≤ (rowScatterDims N D E wf).start (ix2 e c) idx 1 + ((rowScatterDims N D E wf).window (ix2 e c) 1 : Int)
          ∧ (rowScatterDims N D E wf).start (ix2 e c) idx 1 + ((rowScatterDims N D E wf).window (ix2 e c) 1 : Int) < (D : Int)
        rw [h1]; omega
    unfold ScatterDims.resultIdx?
    rw [dif_pos h]
    refine congrArg some (funext fun a => Fin.ext ?_)
    match a with
    | ⟨0, _⟩ =>
      show ((rowScatterDims N D E wf).start (ix2 e c) idx 0 + ((rowScatterDims N D E wf).window (ix2 e c) 0 : Int)).toNat = n.val
      rw [h0, hr]; omega
    | ⟨1, _⟩ =>
      show ((rowScatterDims N D E wf).start (ix2 e c) idx 1 + ((rowScatterDims N D E wf).window (ix2 e c) 1 : Int)).toNat = c.val
      rw [h1]; omega

/-- ROWS ACCUMULATED INTO A MATRIX at `(n, c)`: the operand there plus the updates `(e, c)` of the edges whose integer
    is `n`. -/
theorem scatterAdd_rows_apply (x : (⟨2, ![N, D]⟩ : Shape).Idx → EReal) (upd : (⟨2, ![E, D]⟩ : Shape).Idx → EReal)
    (n : Fin N) (c : Fin D) :
    Ideal.hostScatterAdd (rowScatterDims N D E wf) x idx upd (ix2 n c)
      = x (ix2 n c) + ∑ e ∈ Finset.univ.filter (fun e : Fin E => (idx (ix2 e (0 : Fin 1))).toInt = (n.val : Int)),
          upd (ix2 e c) := by
  unfold Ideal.hostScatterAdd
  refine congrArg (x (ix2 n c) + ·) ?_
  have key : ∀ j : (⟨2, ![E, D]⟩ : Shape).Idx, (rowScatterDims N D E wf).resultIdx? j idx = some (ix2 n c) →
      (idx (ix2 (j 0 : Fin E) (0 : Fin 1))).toInt = (n.val : Int) ∧ ix2 (j 0 : Fin E) c = j := by
    intro j hj
    obtain ⟨e, c', rfl⟩ : ∃ (e : Fin E) (c' : Fin D), j = ix2 e c' := ⟨j 0, j 1, eq_ix2 j⟩
    obtain ⟨hr, rfl⟩ := (rowScatter_resultIdx_iff wf idx e c' n c).mp hj
    exact ⟨hr, rfl⟩
  refine Finset.sum_nbij' (fun j => (j 0 : Fin E)) (fun e => ix2 e c) ?_ ?_ ?_ ?_ ?_
  · intro j hj
    exact Finset.mem_filter.mpr ⟨Finset.mem_univ _, (key j (Finset.mem_filter.mp hj).2).1⟩
  · intro e he
    exact Finset.mem_filter.mpr ⟨Finset.mem_univ _,
      (rowScatter_resultIdx_iff wf idx e c n c).mpr ⟨(Finset.mem_filter.mp he).2, rfl⟩⟩
  · intro j hj
    exact (key j (Finset.mem_filter.mp hj).2).2
  · intro e _
    rfl
  · intro j hj
    exact congrArg upd (key j (Finset.mem_filter.mp hj).2).2.symm

end Rows

/-! ### The middle axis of a rank-3 array -/

/-- The dimension numbers of `x.at[:, idx, :].add(upd)` for an operand `[B, N, D]`, scatter indices `[E, 1]` and
    updates `[B, E, D]`. -/
abbrev midScatterDims (B N D E : Nat)
    (wf : ScatterDims.WF ⟨3, ![B, N, D]⟩ ⟨2, ![E, 1]⟩ ⟨3, ![B, E, D]⟩ [0, 2] [1] [1] 1) :
    ScatterDims ⟨3, ![B, N, D]⟩ ⟨2, ![E, 1]⟩ ⟨3, ![B, E, D]⟩ where
  updateWindowDims := [0, 2]
  insertedWindowDims := [1]
  scatterDimsToOperandDims := [1]
  indexVectorDim := 1
  wf := wf

section Mid
variable {B N D E w : Nat} (wf : ScatterDims.WF ⟨3, ![B, N, D]⟩ ⟨2, ![E, 1]⟩ ⟨3, ![B, E, D]⟩ [0, 2] [1] [1] 1)
  (idx : IVec ⟨2, ![E, 1]⟩ w)

/-- On the middle axis the window of update `(b, e, o)` starts at edge `e`'s integer, read signed, … -/
theorem midScatter_start1 (b : Fin B) (e : Fin E) (o : Fin D) :
    (midScatterDims B N D E wf).start (ix3 b e o) idx 1 = (idx (ix2 e (0 : Fin 1))).toInt := by
  unfold ScatterDims.start
  rw [dif_pos (show (1 : Fin 3) ∈ (midScatterDims B N D E wf).scatterDimsToOperandDims from List.mem_singleton.mpr rfl)]
  have hsi : (midScatterDims B N D E wf).siIdx (ix3 b e o) ⟨List.idxOf (1 : Fin 3) (midScatterDims B N D E wf).scatterDimsToOperandDims,
      List.idxOf_lt_length_iff.2 (List.mem_singleton.mpr rfl)⟩ = ix2 e (0 : Fin 1) := by
    funext b'; refine Fin.ext ?_
    match b' with
    | ⟨0, _⟩ => rfl
    | ⟨1, _⟩ => rfl
  rw [hsi]

/-- … and on the outer axes at zero. -/
theorem midScatter_start0 (j : (⟨3, ![B, E, D]⟩ : Shape).Idx) : (midScatterDims B N D E wf).start j idx 0 = 0 := by
  unfold ScatterDims.start
  rw [dif_neg (show ¬ (0 : Fin 3) ∈ ([1] : List (Fin 3)) from by decide)]
theorem midScatter_start2 (j : (⟨3, ![B, E, D]⟩ : Shape).Idx) : (midScatterDims B N D E wf).start j idx 2 = 0 := by
  unfold ScatterDims.start
  rw [dif_neg (show ¬ (2 : Fin 3) ∈ ([1] : List (Fin 3)) from by decide)]

/-- The window coordinates are the update's outer coordinates, and zero on the middle axis. -/
theorem midScatter_window0 (b : Fin B) (e : Fin E) (o : Fin D) : (midScatterDims B N D E wf).window (ix3 b e o) 0 = b.val := by
  have hk : (0 : Fin 3) ∈ (midScatterDims B N D E wf).sKept :=
    (mem_sKept_iff _ _).mpr (show ¬ (0 : Fin 3) ∈ ([1] : List (Fin 3)) from by decide)
  unfold ScatterDims.window
  rw [dif_pos hk]
  rfl
theorem midScatter_window1 (j : (⟨3, ![B, E, D]⟩ : Shape).Idx) : (midScatterDims B N D E wf).window j 1 = 0 := by
  unfold ScatterDims.window
  rw [dif_neg (fun h => ((mem_sKept_iff _ _).mp h) (List.mem_singleton.mpr rfl))]
theorem midScatter_window2 (b : Fin B) (e : Fin E) (o : Fin D) : (midScatterDims B N D E wf).window (ix3 b e o) 2 = o.val := by
  have hk : (2 : Fin 3) ∈ (midScatterDims B N D E wf).sKept :=
    (mem_sKept_iff _ _).mpr (show ¬ (2 : Fin 3) ∈ ([1] : List (Fin 3)) from by decide)
  unfold ScatterDims.window
  rw [dif_pos hk]
  rfl

/-- WHERE UPDATE `(b, e, o)` LANDS: at `(b', n, o')` exactly when edge `e`'s integer, read signed, is `n` and the outer
    coordinates agree. -/
theorem midScatter_resultIdx_iff (b : Fin B) (e : Fin E) (o : Fin D) (b' : Fin B) (n : Fin N) (o' : Fin D) :
    (midScatterDims B N D E wf).resultIdx? (ix3 b e o) idx = some (ix3 b' n o')
      ↔ (idx (ix2 e (0 : Fin 1))).toInt = (n.val : Int) ∧ b = b' ∧ o = o' := by
  have h0 : (midScatterDims B N D E wf).start (ix3 b e o) idx 0 + ((midScatterDims B N D E wf).window (ix3 b e o) 0 : Int)
      = (b.val : Int) := by
    rw [midScatter_start0, midScatter_window0]; simp
  have h1 : (midScatterDims B N D E wf).start (ix3 b e o) idx 1 + ((midScatterDims B N D E wf).window (ix3 b e o) 1 : Int)
      = (idx (ix2 e (0 : Fin 1))).toInt := by
    rw [midScatter_start1, midScatter_window1]; simp
  have h2 : (midScatterDims B N D E wf).start (ix3 b e o) idx 2 + ((midScatterDims B N D E wf).window (ix3 b e o) 2 : Int)
      = (o.val : Int) := by
    rw [midScatter_start2, midScatter_window2]; simp
  constructor
  · intro hs
    unfold ScatterDims.resultIdx? at hs
    split at hs
    · rename_i h
      have hf := Option.some.inj hs
      have e0 : ((midScatterDims B N D E wf).start (ix3 b e o) idx 0 + ((midScatterDims B N D E wf).window (ix3 b e o) 0 : Int)).toNat
          = b'.val := congrArg Fin.val (congrFun hf 0)
      have e1 : ((midScatterDims B N D E wf).start (ix3 b e o) idx 1 + ((midScatterDims B N D E wf).window (ix3 b e o) 1 : Int)).toNat
          = n.val := congrArg Fin.val (congrFun hf 1)
      have e2 : ((midScatterDims B N D E wf).start (ix3 b e o) idx 2 + ((midScatterDims B N D E wf).window (ix3 b e o) 2 : Int)).toNat
          = o'.val := congrArg Fin.val (congrFun hf 2)
      have b1 : 0 ≤ (midScatterDims B N D E wf).start (ix3 b e o) idx 1 + ((midScatterDims B N D E wf).window (ix3 b e o) 1 : Int) :=
        (h 1).1
      rw [h0] at e0
      rw [h1] at e1 b1
      rw [h2] at e2
      exact ⟨by omega, Fin.ext (by omega), Fin.ext (by omega)⟩
    · exact absurd hs (by simp)
  · rintro ⟨hr, rfl, rfl⟩
    have hb : b.val < B := b.isLt
    have hn : n.val < N := n.isLt
    have ho : o.val < D := o.isLt
    have h : ∀ a, 0 ≤ (midScatterDims B N D E wf).start (ix3 b e o) idx a + ((midScatterDims B N D E wf).window (ix3 b e o) a : Int)
        ∧ (midScatterDims B N D E wf).start (ix3 b e o) idx a + ((midScatterDims B N D E wf).window (ix3 b e o) a : Int)
          < ((⟨3, ![B, N, D]⟩ : Shape).size a : Int) := by
      intro a
      match a with
      | ⟨0, _⟩ =>
        show 0 ≤ (midScatterDims B N D E wf).start (ix3 b e o) idx 0 + ((midScatterDims B N D E wf).window (ix3 b e o) 0 : Int)
          ∧ (midScatterDims B N D E wf).start (ix3 b e o) idx 0 + ((midScatterDims B N D E wf).window (ix3 b e o) 0 : Int) < (B : Int)
        rw [h0]; omega
      | ⟨1, _⟩ =>
        show 0 ≤ (midScatterDims B N D E wf).start (ix3 b e o) idx 1 + ((midScatterDims B N D E wf).window (ix3 b e o) 1 : Int)
          ∧ (midScatterDims B N D E wf).start (ix3 b e o) idx 1 + ((midScatterDims B N D E wf).window (ix3 b e o) 1 : Int) < (N : Int)
        rw [h1, hr]; omega
      | ⟨2, _⟩ =>
        show 0 ≤ (midScatterDims B N D E wf).start (ix3 b e o) idx 2 + ((midScatterDims B N D E wf).window (ix3 b e o) 2 : Int)
          ∧ (midScatterDims B N D E wf).start (ix3 b e o) idx 2 + ((midScatterDims B N D E wf).window (ix3 b e o) 2 : Int) < (D : Int)
        rw [h2]; omega
    unfold ScatterDims.resultIdx?
    rw [dif_pos h]
    refine congrArg some (funext fun a => Fin.ext ?_)
    match a with
    | ⟨0, _⟩ =>
      show ((midScatterDims B N D E wf).start (ix3 b e o) idx 0 + ((midScatterDims B N D E wf).window (ix3 b e o) 0 : Int)).toNat = b.val
      rw [h0]; omega
    | ⟨1, _⟩ =>
      show ((midScatterDims B N D E wf).start (ix3 b e o) idx 1 + ((midScatterDims B N D E wf).window (ix3 b e o) 1 : Int)).toNat = n.val
      rw [h1, hr]; omega
    | ⟨2, _⟩ =>
      show ((midScatterDims B N D E wf).start (ix3 b e o) idx 2 + ((midScatterDims B N D E wf).window (ix3 b e o) 2 : Int)).toNat = o.val
      rw [h2]; omega

/-- THE MIDDLE AXIS ACCUMULATED at `(b, n, o)`: the operand there plus the updates `(b, e, o)` of the edges whose
    integer is `n` — the same edges as in the matrix layout. -/
theorem scatterAdd_mid_apply (x : (⟨3, ![B, N, D]⟩ : Shape).Idx → EReal) (upd : (⟨3, ![B, E, D]⟩ : Shape).Idx → EReal)
    (b : Fin B) (n : Fin N) (o : Fin D) :
    Ideal.hostScatterAdd (midScatterDims B N D E wf) x idx upd (ix3 b n o)
      = x (ix3 b n o) + ∑ e ∈ Finset.univ.filter (fun e : Fin E => (idx (ix2 e (0 : Fin 1))).toInt = (n.val : Int)),
          upd (ix3 b e o) := by
  unfold Ideal.hostScatterAdd
  refine congrArg (x (ix3 b n o) + ·) ?_
  have key : ∀ j : (⟨3, ![B, E, D]⟩ : Shape).Idx, (midScatterDims B N D E wf).resultIdx? j idx = some (ix3 b n o) →
      (idx (ix2 (j 1 : Fin E) (0 : Fin 1))).toInt = (n.val : Int) ∧ ix3 b (j 1 : Fin E) o = j := by
    intro j hj
    obtain ⟨b', e, o', rfl⟩ : ∃ (b' : Fin B) (e : Fin E) (o' : Fin D), j = ix3 b' e o' := ⟨j 0, j 1, j 2, eq_ix3 j⟩
    obtain ⟨hr, rfl, rfl⟩ := (midScatter_resultIdx_iff wf idx b' e o' b n o).mp hj
    exact ⟨hr, rfl⟩
  refine Finset.sum_nbij' (fun j => (j 1 : Fin E)) (fun e => ix3 b e o) ?_ ?_ ?_ ?_ ?_
  · intro j hj
    exact Finset.mem_filter.mpr ⟨Finset.mem_univ _, (key j (Finset.mem_filter.mp hj).2).1⟩
  · intro e he
    exact Finset.mem_filter.mpr ⟨Finset.mem_univ _,
      (midScatter_resultIdx_iff wf idx b e o b n o).mpr ⟨(Finset.mem_filter.mp he).2, rfl, rfl⟩⟩
  · intro j hj
    exact (key j (Finset.mem_filter.mp hj).2).2
  · intro e _
    rfl
  · intro j hj
    exact congrArg upd (key j (Finset.mem_filter.mp hj).2).2.symm

end Mid

end Scatter

end Cert.Lib

end
-- ==== Proof.RefSide.lean ====
/-
  The reference program of a two-layer mean-aggregation graph network with a linear edge scorer, read one entry at a
  time, is the specification: `Cert.Sage.layer` twice, then a 128-term product split at position 64.

  LAYER.  The program divides the neighbour sums A by the in-degree c clamped below by 1 (the clamped in-degree is
  broadcast along the feature axis), multiplies by the TRANSPOSED weight, adds the bias broadcast along the node
  axis, adds the features times the transposed second weight, and takes the maximum with +0.0.  At entry (n, j) a
  product with a transposed 64 x 64 matrix W is  Σₖ left(n, k) · W(j, k),  and every broadcast reads its operand at
  the one coordinate it keeps, so entry (n, j) of the layer is
      max ( Σₖ (A(n,k) / max(c(n), 1)) · Wl(j,k)  +  b(j)  +  Σₖ X(n,k) · Wr(j,k) ,  0 ).
  The neighbour sums and the in-degrees themselves (an accumulating scatter of gathered rows, and of ones) are not
  opened here: the same two terms stand on both sides of each statement.

  SCORER.  For edge e the program places row s(e) and row d(e) of the second layer's output side by side (s, d the
  edge's two integers, each moved up by the row count when negative and then clamped into the row range as a gather
  clamps its start index), multiplies the 128-entry row by the transposed 1 x 128 weight, adds the bias and drops the
  unit axis.  Position k < 64 of the joined row is entry k of the first row and position k ≥ 64 is entry k − 64 of the
  second, so the 128-term sum splits at 64:
      Σₖ h(s(e), k) · w(k)  +  Σₖ h(d(e), k) · w(64 + k)  +  bias.
-/
import proofs.«155836_j7816840478969_2_alg».proof.Proof.Gen.ReferenceIdeal.Read
import proofs.«155836_j7816840478969_2_alg».proof.Proof.Spec
import proofs.«155836_j7816840478969_2_alg».proof.Proof.LibEdgeGatherScatter

noncomputable section

namespace Cert.ReferenceIdeal.RefValue

open Cert.ReferenceIdeal Cert.ReferenceIdeal.Read Idealize.ShloMosaic Idealize.ShloMosaic.ValueIdx

/-! ## The first layer -/

/-- The first layer's in-degree clamped below by one and broadcast along the feature axis, read at `(n, k)`: it does
    not depend on `k`. -/
theorem degree1_at (x1 : (⟨S2x1600000, .i32⟩ : BufTy).Contents (Elt Ideal)) (n : Fin 100000) (k : Fin 64) :
    val_main_v21 (F := Ideal) x1 (ix2 n k) = max (val_main_v17 (F := Ideal) x1 (ix1 n)) Cert.Sage.one := by
  have e : idx_main_v20 (idx_main_v21 (ix2 n k)) = ix1 n := funext fun a => Fin.ext (by match a with | ⟨0, _⟩ => rfl)
  rw [val_main_v21_apply, val_main_v20_apply, val_main_v19_apply, val_main_v18_apply, val_main_cst_3_apply, e]
  rfl

/-- THE FIRST LAYER at `(n, j)`: the reference's value is the specification's layer of the neighbour sums, the input
    features, the in-degrees and the three parameter arrays. -/
theorem ref_layer1 (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (n : Fin 100000) (j : Fin 64) :
    val_main_v31 (F := Ideal) x0 x1 x2 x3 x4 (ix2 n j)
      = Cert.Sage.layer (fun (n : Fin 100000) (k : Fin 64) => val_main_v13 (F := Ideal) x0 x1 (ix2 n k))
          (fun (n : Fin 100000) (k : Fin 64) => x0 (ix2 n k)) (fun (n : Fin 100000) => val_main_v17 (F := Ideal) x1 (ix1 n))
          (fun (j k : Fin 64) => x2 (ix2 j k)) (fun (j : Fin 64) => x3 (ix1 j)) (fun (j k : Fin 64) => x4 (ix2 j k)) n j := by
  -- the bias, broadcast twice, is read at its one coordinate
  have eb : idx_main_v25 (idx_main_v26 (ix2 n j)) = ix1 j := funext fun a => Fin.ext (by match a with | ⟨0, _⟩ => rfl)
  -- a term of the product with the transposed first weight
  have hl : ∀ k : Fin 64,
      val_main_v22 (F := Ideal) x0 x1 (lidx_main_v24 (ix2 n j) k) * val_main_v23 (F := Ideal) x2 (ridx_main_v24 (ix2 n j) k)
        = Ideal.div (val_main_v13 (F := Ideal) x0 x1 (ix2 n k)) (max (val_main_v17 (F := Ideal) x1 (ix1 n)) Cert.Sage.one)
            * x2 (ix2 j k) := by
    intro k
    have e1 : lidx_main_v24 (ix2 n j) k = ix2 n k := funext fun a => Fin.ext (by match a with | ⟨0, _⟩ => rfl | ⟨1, _⟩ => rfl)
    have e2 : idx_main_v23 (ridx_main_v24 (ix2 n j) k) = ix2 j k := funext fun a => Fin.ext (by match a with | ⟨0, _⟩ => rfl | ⟨1, _⟩ => rfl)
    rw [e1, val_main_v22_apply, degree1_at, val_main_v23_apply, e2]
    rfl
  -- a term of the product with the transposed second weight
  have hr : ∀ k : Fin 64,
      x0 (lidx_main_v29 (ix2 n j) k) * val_main_v28 (F := Ideal) x4 (ridx_main_v29 (ix2 n j) k)
        = x0 (ix2 n k) * x4 (ix2 j k) := by
    intro k
    have e1 : lidx_main_v29 (ix2 n j) k = ix2 n k := funext fun a => Fin.ext (by match a with | ⟨0, _⟩ => rfl | ⟨1, _⟩ => rfl)
    have e2 : idx_main_v28 (ridx_main_v29 (ix2 n j) k) = ix2 j k := funext fun a => Fin.ext (by match a with | ⟨0, _⟩ => rfl | ⟨1, _⟩ => rfl)
    rw [e1, val_main_v28_apply, e2]
  unfold Cert.Sage.layer
  rw [val_main_v31_apply, val_main_v30_apply, val_main_v27_apply, val_main_v24_apply, val_main_v29_apply,
    val_main_v26_apply, val_main_v25_apply, eb, val_main_call0_v0_apply, val_main_call0_cst_apply]
  simp only [hl, hr]
  rfl

/-! ## The second layer -/

/-- The second layer's in-degree clamped below by one and broadcast along the feature axis, read at `(n, k)`. -/
theorem degree2_at (x1 : (⟨S2x1600000, .i32⟩ : BufTy).Contents (Elt Ideal)) (n : Fin 100000) (k : Fin 64) :
    val_main_v49 (F := Ideal) x1 (ix2 n k) = max (val_main_v45 (F := Ideal) x1 (ix1 n)) Cert.Sage.one := by
  have e : idx_main_v48 (idx_main_v49 (ix2 n k)) = ix1 n := funext fun a => Fin.ext (by match a with | ⟨0, _⟩ => rfl)
  rw [val_main_v49_apply, val_main_v48_apply, val_main_v47_apply, val_main_v46_apply, val_main_cst_9_apply, e]
  rfl

/-- THE SECOND LAYER at `(n, j)`: the specification's layer of the second neighbour sums, the first layer's output,
    the in-degrees and the second three parameter arrays. -/
theorem ref_layer2 (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (n : Fin 100000) (j : Fin 64) :
    val_main_v59 (F := Ideal) x0 x1 x2 x3 x4 x5 x6 x7 (ix2 n j)
      = Cert.Sage.layer (fun (n : Fin 100000) (k : Fin 64) => val_main_v41 (F := Ideal) x0 x1 x2 x3 x4 (ix2 n k))
          (fun (n : Fin 100000) (k : Fin 64) => val_main_v31 (F := Ideal) x0 x1 x2 x3 x4 (ix2 n k))
          (fun (n : Fin 100000) => val_main_v45 (F := Ideal) x1 (ix1 n))
          (fun (j k : Fin 64) => x5 (ix2 j k)) (fun (j : Fin 64) => x6 (ix1 j)) (fun (j k : Fin 64) => x7 (ix2 j k)) n j := by
  -- the bias, broadcast twice, is read at its one coordinate
  have eb : idx_main_v53 (idx_main_v54 (ix2 n j)) = ix1 j := funext fun a => Fin.ext (by match a with | ⟨0, _⟩ => rfl)
  -- a term of the product with the transposed first weight
  have hl : ∀ k : Fin 64,
      val_main_v50 (F := Ideal) x0 x1 x2 x3 x4 (lidx_main_v52 (ix2 n j) k) * val_main_v51 (F := Ideal) x5 (ridx_main_v52 (ix2 n j) k)
        = Ideal.div (val_main_v41 (F := Ideal) x0 x1 x2 x3 x4 (ix2 n k)) (max (val_main_v45 (F := Ideal) x1 (ix1 n)) Cert.Sage.one)
            * x5 (ix2 j k) := by
    intro k
    have e1 : lidx_main_v52 (ix2 n j) k = ix2 n k := funext fun a => Fin.ext (by match a with | ⟨0, _⟩ => rfl | ⟨1, _⟩ => rfl)
    have e2 : idx_main_v51 (ridx_main_v52 (ix2 n j) k) = ix2 j k := funext fun a => Fin.ext (by match a with | ⟨0, _⟩ => rfl | ⟨1, _⟩ => rfl)
    rw [e1, val_main_v50_apply, degree2_at, val_main_v51_apply, e2]
    rfl
  -- a term of the product with the transposed second weight
  have hr : ∀ k : Fin 64,
      val_main_v31 (F := Ideal) x0 x1 x2 x3 x4 (lidx_main_v57 (ix2 n j) k) * val_main_v56 (F := Ideal) x7 (ridx_main_v57 (ix2 n j) k)
        = val_main_v31 (F := Ideal) x0 x1 x2 x3 x4 (ix2 n k) * x7 (ix2 j k) := by
    intro k
    have e1 : lidx_main_v57 (ix2 n j) k = ix2 n k := funext fun a => Fin.ext (by match a with | ⟨0, _⟩ => rfl | ⟨1, _⟩ => rfl)
    have e2 : idx_main_v56 (ridx_main_v57 (ix2 n j) k) = ix2 j k := funext fun a => Fin.ext (by match a with | ⟨0, _⟩ => rfl | ⟨1, _⟩ => rfl)
    rw [e1, val_main_v56_apply, e2]
  unfold Cert.Sage.layer
  rw [val_main_v59_apply, val_main_v58_apply, val_main_v55_apply, val_main_v52_apply, val_main_v57_apply,
    val_main_v54_apply, val_main_v53_apply, eb, val_main_call1_v0_apply, val_main_call1_cst_apply]
  simp only [hl, hr]
  rfl

/-! ## The edge scorer -/

/-- ROWS AT THE EDGES' INTEGERS at `(e, q)`: the operand at the row edge `e`'s integer selects (read signed and
    clamped into the row range), column `q`. -/
theorem rows_at {α : Type} (x : S100000x64.Idx → α) (idx : IVec S1600000x1 32) (e : Fin 1600000) (q : Fin 64) :
    Host.gather gather_S100000x64_S1600000x1_S1600000x64_1_0_n_n_0_1_164 x idx (ix2 e q)
      = x (ix2 (Cert.Lib.clampRow 100000 (by decide) idx e) q) :=
  Cert.Lib.gather_rows_apply (N := 100000) (D := 64) (E := 1600000) (by decide)
    gather_S100000x64_S1600000x1_S1600000x64_1_0_n_n_0_1_164.wf x idx e q

/-- THE JOINED ROW of edge `e` at position `k`: entry `k` of the second layer's row at the edge's first integer when
    `k < 64`, entry `k − 64` of its row at the edge's second integer otherwise. -/
theorem joined_at (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (e : Fin 1600000) (k : Fin 128) :
    val_main_v74 (F := Ideal) x0 x1 x2 x3 x4 x5 x6 x7 (ix2 e k)
      = Cert.Sage.cat
          (fun q : Fin 64 => val_main_v59 (F := Ideal) x0 x1 x2 x3 x4 x5 x6 x7
            (ix2 (Cert.Lib.clampRow 100000 (by decide) (val_main_v65 (F := Ideal) x1) e) q))
          (fun q : Fin 64 => val_main_v59 (F := Ideal) x0 x1 x2 x3 x4 x5 x6 x7
            (ix2 (Cert.Lib.clampRow 100000 (by decide) (val_main_v72 (F := Ideal) x1) e) q)) k := by
  unfold val_main_v74 Cert.Sage.cat
  by_cases h : k.val < 64
  · rw [dif_pos h]
    refine (concatenate_pair_apply_left (t := S1600000x128) (s₁ := S1600000x64) (s₂ := S1600000x64) _ _ _ _ (ix2 e k) rfl (ix2 e (⟨k.val, h⟩ : Fin 64)) ?_).trans ?_
    · intro b
      match b with
      | ⟨0, _⟩ => rfl
      | ⟨1, _⟩ => rfl
    · unfold val_main_v66
      exact rows_at _ _ e ⟨k.val, h⟩
  · rw [dif_neg h]
    have hk : k.val - 64 < 64 := by have := k.isLt; omega
    refine (concatenate_pair_apply_right (t := S1600000x128) (s₁ := S1600000x64) (s₂ := S1600000x64) _ _ _ _ (ix2 e k) rfl rfl (ix2 e (⟨k.val - 64, hk⟩ : Fin 64)) ?_ ?_).trans ?_
    · intro b hb
      match b, hb with
      | ⟨0, _⟩, _ => rfl
      | ⟨1, _⟩, hb => exact absurd rfl hb
    · show (k.val - 64) + 64 = k.val
      omega
    · unfold val_main_v73
      exact rows_at _ _ e ⟨k.val - 64, hk⟩

/-- THE SCORE of edge `e`: the first half of the weight row against the second layer's row at the edge's first
    integer, plus the second half against its row at the edge's second integer, plus the bias. -/
theorem ref_score (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S1x128, .f32⟩ : BufTy).Contents (Elt Ideal)) (x9 : (⟨S1, .f32⟩ : BufTy).Contents (Elt Ideal)) (e : Fin 1600000) :
    val_main_v80 (F := Ideal) x0 x1 x2 x3 x4 x5 x6 x7 x8 x9 (ix1 e)
      = ((∑ k : Fin 64, val_main_v59 (F := Ideal) x0 x1 x2 x3 x4 x5 x6 x7
              (ix2 (Cert.Lib.clampRow 100000 (by decide) (val_main_v65 (F := Ideal) x1) e) k)
            * x8 (ix2 (0 : Fin 1) (⟨k.val, by omega⟩ : Fin 128)))
          + ∑ k : Fin 64, val_main_v59 (F := Ideal) x0 x1 x2 x3 x4 x5 x6 x7
              (ix2 (Cert.Lib.clampRow 100000 (by decide) (val_main_v72 (F := Ideal) x1) e) k)
            * x8 (ix2 (0 : Fin 1) (⟨64 + k.val, by omega⟩ : Fin 128)))
        + x9 (ix1 (0 : Fin 1)) := by
  -- dropping the unit axis reads entry (e, 0)
  have e80 : idx_main_v80 (ix1 e) = ix2 e (0 : Fin 1) :=
    funext fun a => Fin.ext (by
      match a with
      | ⟨0, _⟩ => show e.val / 1 = e.val; exact Nat.div_one _
      | ⟨1, _⟩ => rfl)
  -- the bias, broadcast twice, is read at its one entry
  have e9 : idx_main_v77 (idx_main_v78 (ix2 e (0 : Fin 1))) = ix1 (0 : Fin 1) := funext fun a => Fin.ext (by match a with | ⟨0, _⟩ => rfl)
  -- a term of the product of the joined row with the transposed weight row
  have ht : ∀ k : Fin 128,
      val_main_v74 (F := Ideal) x0 x1 x2 x3 x4 x5 x6 x7 (lidx_main_v76 (ix2 e (0 : Fin 1)) k)
          * val_main_v75 (F := Ideal) x8 (ridx_main_v76 (ix2 e (0 : Fin 1)) k)
        = Cert.Sage.cat
            (fun q : Fin 64 => val_main_v59 (F := Ideal) x0 x1 x2 x3 x4 x5 x6 x7
              (ix2 (Cert.Lib.clampRow 100000 (by decide) (val_main_v65 (F := Ideal) x1) e) q))
            (fun q : Fin 64 => val_main_v59 (F := Ideal) x0 x1 x2 x3 x4 x5 x6 x7
              (ix2 (Cert.Lib.clampRow 100000 (by decide) (val_main_v72 (F := Ideal) x1) e) q)) k
          * x8 (ix2 (0 : Fin 1) k) := by
    intro k
    have e1 : lidx_main_v76 (ix2 e (0 : Fin 1)) k = ix2 e k := funext fun a => Fin.ext (by match a with | ⟨0, _⟩ => rfl | ⟨1, _⟩ => rfl)
    have e2 : idx_main_v75 (ridx_main_v76 (ix2 e (0 : Fin 1)) k) = ix2 (0 : Fin 1) k := funext fun a => Fin.ext (by match a with | ⟨0, _⟩ => rfl | ⟨1, _⟩ => rfl)
    rw [e1, joined_at, val_main_v75_apply, e2]
  rw [val_main_v80_apply, e80, val_main_v79_apply, val_main_v76_apply, val_main_v78_apply, val_main_v77_apply, e9]
  simp only [ht]
  exact congrArg (· + x9 (ix1 (0 : Fin 1)))
    (Cert.Sage.sum_cat _ _ (fun k : Fin 128 => x8 (ix2 (0 : Fin 1) k)))

end Cert.ReferenceIdeal.RefValue

end
-- ==== Proof.LibCountScatter.lean ====
/-
  Counting with an accumulating scatter. Independent of any program.

  A scatter visits the updates one by one in row-major order; update number `n` names a place of the operand (or no
  place, when it falls outside) that does not depend on what was written before.  So the element that ends at place
  `i` is the operand's element there with the body applied, in order, to exactly the updates that land at `i`.

  Take the operand all zeros and every update one.  With a 32-bit integer sum as body the element at `i` is the
  number `k` of updates landing at `i`, reduced modulo `2 ^ 32`; `k` is at most the number of updates, so when
  that is below `2 ^ 31` the signed reading of the element is `k` itself.  Over the extended reals the accumulating
  scatter leaves `0` plus a sum of `k` ones, which is `k` again.  Hence the integer count, converted, is the real count.
-/
import Idealize.ShloMosaic.Lib.ValueIdx
import Idealize.ShloMosaic.PureOps.Ideal

noncomputable section

namespace Cert.Lib

open Idealize.ShloMosaic Idealize.ShloMosaic.ValueIdx

/-- A scatter's fold over any list of update numbers, read at `i`: the fold of the body over those numbers of the
    list that land at `i`, started from the operand's element at `i`. -/
theorem scatter_foldl_apply {α : Type} {s si u : Shape} {w : Nat} (d : ScatterDims s si u) (f : α → α → α)
    (idx : IVec si w) (upd : u.Idx → α) (i : s.Idx) (l : List (Fin u.numel)) (x : s.Idx → α) :
    l.foldl (fun r n =>
        match d.resultIdx? (u.rowMajor.symm n) idx with
        | some i₀ => fun i' => if i' = i₀ then f (r i₀) (upd (u.rowMajor.symm n)) else r i'
        | none => r) x i
      = (l.filter (fun n => decide (d.resultIdx? (u.rowMajor.symm n) idx = some i))).foldl
          (fun a n => f a (upd (u.rowMajor.symm n))) (x i) := by
  induction l generalizing x with
  | nil => rfl
  | cons n l ih =>
    rw [List.foldl_cons, ih, List.filter_cons]
    cases h : d.resultIdx? (u.rowMajor.symm n) idx with
    | none => simp
    | some i₀ =>
      by_cases hi : i = i₀
      · subst hi; simp
      · have hne : ¬ (some i₀ = some i) := fun hs => hi (Option.some.inj hs).symm
        simp [hi, hne]

/-- THE ELEMENT A SCATTER LEAVES AT `i`: the body folded, in row-major order, over the updates that land at `i`,
    started from the operand's element. -/
theorem scatter_apply_foldl {α : Type} {s si u : Shape} {w : Nat} (d : ScatterDims s si u) (f : α → α → α)
    (x : s.Idx → α) (idx : IVec si w) (upd : u.Idx → α) (i : s.Idx) :
    Host.scatter d f x idx upd i
      = ((List.finRange u.numel).filter (fun n => decide (d.resultIdx? (u.rowMajor.symm n) idx = some i))).foldl
          (fun a n => f a (upd (u.rowMajor.symm n))) (x i) :=
  scatter_foldl_apply d f idx upd i (List.finRange u.numel) x

/-! ## Counting -/

/-- Adding the 32-bit integer one once for every member of a list adds the list's length, modulo `2 ^ 32`. -/
theorem foldl_addi_one {β : Type} (l : List β) (a : BitVec 32) :
    l.foldl (fun a _ => IntOp.addi a (1#32 : BitVec 32)) a = a + BitVec.ofNat 32 l.length := by
  induction l generalizing a with
  | nil => simp
  | cons n l ih =>
    rw [List.foldl_cons, ih, List.length_cons]
    unfold IntOp.addi
    rw [BitVec.add_assoc, Nat.add_comm l.length 1, BitVec.ofNat_add]

/-- A natural number below `2 ^ 31`, written as a 32-bit integer and read signed, is itself. -/
theorem toInt_ofNat_of_lt {k : ℕ} (hk : k < 2 ^ 31) : (BitVec.ofNat 32 k).toInt = (k : ℤ) := by
  rw [BitVec.toInt_eq_toNat_cond, BitVec.toNat_ofNat]
  have hmod : k % 2 ^ 32 = k := Nat.mod_eq_of_lt (by omega)
  rw [hmod]
  split <;> omega

/-- The number of updates landing at `i`: how many of the update numbers, in row-major order, name `i`. -/
def landCount {s si u : Shape} {w : Nat} (d : ScatterDims s si u) (idx : IVec si w) (i : s.Idx) : ℕ :=
  ((List.finRange u.numel).filter (fun n => decide (d.resultIdx? (u.rowMajor.symm n) idx = some i))).length

/-- No more updates land at `i` than there are updates. -/
theorem landCount_le {s si u : Shape} {w : Nat} (d : ScatterDims s si u) (idx : IVec si w) (i : s.Idx) :
    landCount d idx i ≤ u.numel := by
  unfold landCount
  exact (List.length_filter_le _ _).trans (List.length_finRange).le

/-- ONES ACCUMULATED OVER THE EXTENDED REALS INTO ZEROS leave at `i` the number of updates landing at `i`. -/
theorem hostScatterAdd_ones {s si u : Shape} {w : Nat} (d : ScatterDims s si u) (idx : IVec si w) (i : s.Idx) :
    Ideal.hostScatterAdd d (fun _ => (0 : EReal)) idx (fun _ => (1 : EReal)) i = (((landCount d idx i : ℕ) : ℝ) : EReal) := by
  unfold Ideal.hostScatterAdd landCount
  rw [Finset.sum_const, zero_add, nsmul_one, EReal.coe_natCast]
  congr 1
  rw [← List.toFinset_card_of_nodup ((List.nodup_finRange _).filter _), List.toFinset_filter, List.toFinset_finRange]
  symm
  refine Finset.card_bij (fun n _ => u.rowMajor.symm n) ?_ ?_ ?_
  · intro n hn
    simpa using hn
  · intro a _ b _ h
    exact u.rowMajor.symm.injective h
  · intro j hj
    exact ⟨u.rowMajor j, by simpa using hj, by simp⟩

/-- ONES ACCUMULATED AS 32-BIT INTEGERS INTO ZEROS leave at `i` the number of updates landing at `i`, modulo
    `2 ^ 32`. -/
theorem scatter_addi_ones {s si u : Shape} {w : Nat} (d : ScatterDims s si u) (idx : IVec si w) (i : s.Idx) :
    Host.scatter d IntOp.addi (fun _ => (0#32 : BitVec 32)) idx (fun _ => (1#32 : BitVec 32)) i
      = BitVec.ofNat 32 (landCount d idx i) := by
  rw [scatter_apply_foldl, foldl_addi_one, BitVec.zero_add]
  rfl

/-- THE INTEGER COUNT, CONVERTED, IS THE REAL COUNT: with fewer than `2 ^ 31` updates, the signed reading of the
    integer scatter of ones into zeros is the extended-real scatter of ones into zeros. -/
theorem count_scatter_eq {s si u : Shape} {w : Nat} (d : ScatterDims s si u) (idx : IVec si w) (hu : u.numel < 2 ^ 31)
    (i : s.Idx) :
    (((Host.scatter d IntOp.addi (fun _ => (0#32 : BitVec 32)) idx (fun _ => (1#32 : BitVec 32)) i).toInt : ℝ) : EReal)
      = Ideal.hostScatterAdd d (fun _ => (0 : EReal)) idx (fun _ => (1 : EReal)) i := by
  rw [scatter_addi_ones, toInt_ofNat_of_lt (lt_of_le_of_lt (landCount_le d idx i) hu), hostScatterAdd_ones,
    Int.cast_natCast]

/-- The extended-real scatter of ones into zeros is a natural number at every place. -/
theorem count_scatter_nat {s si u : Shape} {w : Nat} (d : ScatterDims s si u) (idx : IVec si w) (i : s.Idx) :
    ∃ k : ℕ, Ideal.hostScatterAdd d (fun _ => (0 : EReal)) idx (fun _ => (1 : EReal)) i = (((k : ℕ) : ℝ) : EReal) :=
  ⟨landCount d idx i, hostScatterAdd_ones d idx i⟩

end Cert.Lib

end
-- ==== Proof.LibEdgeGatherVec.lean ====
/-
  A gather of scalars from a vector, keyed by ONE integer per edge. Independent of any program.

  An edge list of length `E` carries, per edge `e`, one integer `idx[e, 0]` (the start indices have shape `[E, 1]`).
  Elements of a vector `x : [N]` taken at the edges' integers (`x[idx]`: no offset axis, collapsed axis 0, slices
  `[1]`) give `[E]`, whose element `e` is `x` at `clampRow idx e` — the integer read signed and clamped into
  `[0, N − 1]`, as the gather clamps every start index.  This is the matrix gather of rows with the column axis
  removed: the same place is read, and nothing is left of the slice but one element.
-/
import proofs.«155836_j7816840478969_2_alg».proof.Proof.LibEdgeGatherScatter

noncomputable section

namespace Cert.Lib

open Idealize.ShloMosaic Idealize.ShloMosaic.ValueIdx

/-- The dimension numbers of `x[idx]` for an operand `[N]`, start indices `[E, 1]` and result `[E]`. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- ELEMENTS OF A VECTOR at `e`: the operand at `clampRow idx e`. -/
theorem gather_vec_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (clampRow N hN idx e)) := by
  unfold Host.gather
  congr 1
  funext a
  refine Fin.ext ?_
  match a with
  | ⟨0, _⟩ =>
    show (vecGatherDims N E wf).start (ix1 e) idx 0 + (vecGatherDims N E wf).batchCoord (ix1 e) 0
        + (vecGatherDims N E wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecGatherDims N E wf).startIndexMap from List.mem_singleton.mpr rfl)]
    have hsi : (vecGatherDims N E wf).siIdx (ix1 e) ⟨List.idxOf (0 : Fin 1) (vecGatherDims N E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

end Cert.Lib

end
-- ==== Proof.KTermsAt.lean ====
/-
  The host-side stretches of the program around the two dense stages, read one entry at a time, and set against the
  reference program's own host operations.

  * The NEIGHBOUR SUMS of a node array and the two columns of start indices are, operation for operation, the terms the
    reference forms: the same slices of the edge list, the same wrap of a negative integer, the same gather and the same
    accumulating scatter.
  * A bias vector read as a row is the vector at the row's column.
  * The per-node FACTOR at node n is 1 / max(c(n), 1): the in-degree is counted there by adding the integer 1 once
    for every edge that points at n; there are 1600000 < 2 ^ 31 edges, so the signed reading of that integer is the
    count itself, which is also what adding the real 1 over the same edges gives.  The in-degree is therefore a
    natural number at every node, and the reference, which counts it twice by the same operations, gets the same array
    twice.
  * The scorer's weights as a 64 x 2 matrix hold weight j in column 0 and weight 64 + j in column 1.
  * The SCORE of an edge is column 0 of the projections at the edge's source row plus column 1 at its destination row
    (each row being the edge's integer, wrapped if negative, then clamped into range by the gather) plus the bias.
-/
import proofs.«155836_j7816840478969_2_alg».proof.Proof.KTerms
import proofs.«155836_j7816840478969_2_alg».proof.Proof.RefSide
import proofs.«155836_j7816840478969_2_alg».proof.Proof.LibCountScatter
import proofs.«155836_j7816840478969_2_alg».proof.Proof.LibEdgeGatherVec
import Idealize.ShloMosaic.Lib.ValueLayout

noncomputable section

namespace Cert.KernelIdeal.TermsAt

open Cert.KernelIdeal Cert.KernelIdeal.Facts₀ Cert.KernelIdeal.Facts Cert.KernelIdeal.Terms
open Idealize.ShloMosaic Idealize.ShloMosaic.ValueIdx

/-! ## The neighbour sums and the start indices are the reference's -/

/-- The reference's column of source rows for the first layer's gather is the wrapped source integers. -/
theorem src_ref1 (x1 : IVec S2x1600000 32) : Cert.ReferenceIdeal.Read.val_main_v9 (F := Ideal) x1 = wrapIdx (srcOf x1) := by
  unfold Cert.ReferenceIdeal.Read.val_main_v9 Cert.ReferenceIdeal.Read.val_main_v8 Cert.ReferenceIdeal.Read.val_main_v5 Cert.ReferenceIdeal.Read.val_main_v7 Cert.ReferenceIdeal.Read.val_main_v4 Cert.ReferenceIdeal.Read.val_main_v6
    Cert.ReferenceIdeal.Read.val_main_c Cert.ReferenceIdeal.Read.val_main_c_0 Cert.ReferenceIdeal.Read.val_main_v1 Cert.ReferenceIdeal.Read.val_main_v0 wrapIdx srcOf
  rfl

/-- The reference's column of destination integers for the first layer's scatter is the destination integers as
    they are. -/
theorem dstcol_ref1 (x1 : IVec S2x1600000 32) : Cert.ReferenceIdeal.Read.val_main_v12 (F := Ideal) x1 = colIdx (dstOf x1) := by
  unfold Cert.ReferenceIdeal.Read.val_main_v12 Cert.ReferenceIdeal.Read.val_main_v3 Cert.ReferenceIdeal.Read.val_main_v2 colIdx dstOf
  rfl

/-- THE FIRST NEIGHBOUR SUMS: the reference's are the neighbour sums of the input features. -/
theorem agg_ref1 (x0 : FVec Ideal S100000x64 .f32) (x1 : IVec S2x1600000 32) :
    Cert.ReferenceIdeal.Read.val_main_v13 (F := Ideal) x0 x1 = aggOf x0 x1 := by
  unfold Cert.ReferenceIdeal.Read.val_main_v13 Cert.ReferenceIdeal.Read.val_main_v10 Cert.ReferenceIdeal.Read.val_main_v11 Cert.ReferenceIdeal.Read.val_main_cst
  rw [src_ref1, dstcol_ref1]
  rfl

/-- The reference's column of source rows for the second layer's gather is the wrapped source integers. -/
theorem src_ref2 (x1 : IVec S2x1600000 32) : Cert.ReferenceIdeal.Read.val_main_v37 (F := Ideal) x1 = wrapIdx (srcOf x1) := by
  unfold Cert.ReferenceIdeal.Read.val_main_v37 Cert.ReferenceIdeal.Read.val_main_v36 Cert.ReferenceIdeal.Read.val_main_v33 Cert.ReferenceIdeal.Read.val_main_v35 Cert.ReferenceIdeal.Read.val_main_v32 Cert.ReferenceIdeal.Read.val_main_v34
    Cert.ReferenceIdeal.Read.val_main_c_4 Cert.ReferenceIdeal.Read.val_main_c_5 Cert.ReferenceIdeal.Read.val_main_v1 Cert.ReferenceIdeal.Read.val_main_v0 wrapIdx srcOf
  rfl

/-- The reference's column of destination integers for the second layer's scatter is the destination integers as
    they are. -/
theorem dstcol_ref2 (x1 : IVec S2x1600000 32) : Cert.ReferenceIdeal.Read.val_main_v40 (F := Ideal) x1 = colIdx (dstOf x1) := by
  unfold Cert.ReferenceIdeal.Read.val_main_v40 Cert.ReferenceIdeal.Read.val_main_v3 Cert.ReferenceIdeal.Read.val_main_v2 colIdx dstOf
  rfl

/-- THE SECOND NEIGHBOUR SUMS: the reference's are the neighbour sums of its first layer's output. -/
theorem agg_ref2 (x0 : FVec Ideal S100000x64 .f32) (x1 : IVec S2x1600000 32) (x2 : FVec Ideal S64x64 .f32)
    (x3 : FVec Ideal S64 .f32) (x4 : FVec Ideal S64x64 .f32) :
    Cert.ReferenceIdeal.Read.val_main_v41 (F := Ideal) x0 x1 x2 x3 x4 = aggOf (Cert.ReferenceIdeal.Read.val_main_v31 (F := Ideal) x0 x1 x2 x3 x4) x1 := by
  unfold Cert.ReferenceIdeal.Read.val_main_v41 Cert.ReferenceIdeal.Read.val_main_v38 Cert.ReferenceIdeal.Read.val_main_v39 Cert.ReferenceIdeal.Read.val_main_cst_6
  rw [src_ref2, dstcol_ref2]
  rfl

/-- The scorer's column of source rows in the reference is the wrapped source integers. -/
theorem src_ref (x1 : IVec S2x1600000 32) : Cert.ReferenceIdeal.Read.val_main_v65 (F := Ideal) x1 = wrapIdx (srcOf x1) := by
  unfold Cert.ReferenceIdeal.Read.val_main_v65 Cert.ReferenceIdeal.Read.val_main_v64 Cert.ReferenceIdeal.Read.val_main_v61 Cert.ReferenceIdeal.Read.val_main_v63 Cert.ReferenceIdeal.Read.val_main_v60 Cert.ReferenceIdeal.Read.val_main_v62
    Cert.ReferenceIdeal.Read.val_main_c_10 Cert.ReferenceIdeal.Read.val_main_c_11 Cert.ReferenceIdeal.Read.val_main_v1 Cert.ReferenceIdeal.Read.val_main_v0 wrapIdx srcOf
  rfl

/-- The scorer's column of destination rows in the reference is the wrapped destination integers. -/
theorem dst_ref (x1 : IVec S2x1600000 32) : Cert.ReferenceIdeal.Read.val_main_v72 (F := Ideal) x1 = wrapIdx (dstOf x1) := by
  unfold Cert.ReferenceIdeal.Read.val_main_v72 Cert.ReferenceIdeal.Read.val_main_v71 Cert.ReferenceIdeal.Read.val_main_v68 Cert.ReferenceIdeal.Read.val_main_v70 Cert.ReferenceIdeal.Read.val_main_v67 Cert.ReferenceIdeal.Read.val_main_v69
    Cert.ReferenceIdeal.Read.val_main_c_12 Cert.ReferenceIdeal.Read.val_main_c_13 Cert.ReferenceIdeal.Read.val_main_v3 Cert.ReferenceIdeal.Read.val_main_v2 wrapIdx dstOf
  rfl

/-! ## Unit axes added and dropped -/

section Casts
variable {α : Type}

/-- An `[a]` array cast to the column `[a, 1]` reads, at `(i, u)`, the operand at `i`. -/
theorem cast_col_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to `[a]` reads, at `i`, the operand at `(i, 0)`. -/
theorem cast_uncol_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A one-element vector cast to a scalar reads the vector's element. -/
theorem cast_scalar_apply (x : (⟨1, ![1]⟩ : Shape).Idx → α) (h : (⟨1, ![1]⟩ : Shape).ShapeCasts ⟨0, ![]⟩)
    (k : (⟨0, ![]⟩ : Shape).Idx) : shapeCast ⟨0, ![]⟩ x h k = x (ix1 (0 : Fin 1)) :=
  shapeCast_apply x h _ _ (by
    rw [Shape.rowMajor_val_one]
    have h1 : (⟨0, ![]⟩ : Shape).numel = 1 := Shape.numel_eq_one fun a => a.elim0
    have hlt := ((⟨0, ![]⟩ : Shape).rowMajor k).isLt
    show 0 = ((⟨0, ![]⟩ : Shape).rowMajor k).val
    omega)

end Casts

/-! ## The bias rows -/

/-- A BIAS ROW at `(0, j)` is the bias vector at `j`. -/
theorem biasRow_at (b : FVec Ideal S64 .f32) (j : Fin 64) : biasRow b (ix2 (0 : Fin 1) j) = b (ix1 j) := by
  unfold biasRow
  exact shapeCast_a_1a_apply b _ 0 j

/-! ## The in-degree and the per-node factor -/

/-- There are fewer than `2 ^ 31` edges. -/
theorem edges_lt : S1600000.numel < 2 ^ 31 := by
  rw [Shape.numel_rank1]
  show (1600000 : ℕ) < 2 ^ 31
  norm_num

/-- The reference's zeros for the in-degree are the real zero everywhere. -/
theorem ref_zeros : (Cert.ReferenceIdeal.Read.val_main_v15 (F := Ideal) : FVec Ideal S100000 .f32) = fun _ => (0 : EReal) := by
  funext i
  exact Ideal.ofBits_zero_f32

/-- The reference's ones for the in-degree are the real one everywhere. -/
theorem ref_ones : (Cert.ReferenceIdeal.Read.val_main_v14 (F := Ideal) : FVec Ideal S1600000 .f32) = fun _ => (1 : EReal) := by
  funext i
  show Cert.Sage.one = 1
  rw [Cert.Sage.one_eq, EReal.coe_one]

/-- The reference's column of destination integers for the in-degree is the destination integers as they are. -/
theorem dstcol_ref_count (x1 : IVec S2x1600000 32) : Cert.ReferenceIdeal.Read.val_main_v16 (F := Ideal) x1 = colIdx (dstOf x1) := by
  unfold Cert.ReferenceIdeal.Read.val_main_v16 Cert.ReferenceIdeal.Read.val_main_v3 Cert.ReferenceIdeal.Read.val_main_v2 colIdx dstOf
  rfl

/-- THE REFERENCE'S IN-DEGREE is the real one accumulated into the real zero at the edges' destinations. -/
theorem degree_eq (x1 : IVec S2x1600000 32) :
    Cert.ReferenceIdeal.Read.val_main_v17 (F := Ideal) x1
      = Ideal.hostScatterAdd scatter_S100000_S1600000x1_S1600000_n_0_0_1 (fun _ => (0 : EReal)) (colIdx (dstOf x1)) (fun _ => (1 : EReal)) := by
  unfold Cert.ReferenceIdeal.Read.val_main_v17
  rw [ref_zeros, ref_ones, dstcol_ref_count]
  rfl

/-- THE IN-DEGREE IS A NATURAL NUMBER at every node. -/
theorem degree_nat (x1 : IVec S2x1600000 32) (n : Fin 100000) :
    ∃ k : ℕ, Cert.ReferenceIdeal.Read.val_main_v17 (F := Ideal) x1 (ix1 n) = (((k : ℕ) : ℝ) : EReal) := by
  rw [degree_eq]
  exact Cert.Lib.count_scatter_nat _ _ (ix1 n)

/-- The reference counts the in-degree a second time by the same operations. -/
theorem degree_again (x1 : IVec S2x1600000 32) :
    Cert.ReferenceIdeal.Read.val_main_v45 (F := Ideal) x1 = Cert.ReferenceIdeal.Read.val_main_v17 (F := Ideal) x1 := by
  unfold Cert.ReferenceIdeal.Read.val_main_v45 Cert.ReferenceIdeal.Read.val_main_v43 Cert.ReferenceIdeal.Read.val_main_cst_8 Cert.ReferenceIdeal.Read.val_main_v44 Cert.ReferenceIdeal.Read.val_main_v42 Cert.ReferenceIdeal.Read.val_main_cst_7
    Cert.ReferenceIdeal.Read.val_main_v17 Cert.ReferenceIdeal.Read.val_main_v15 Cert.ReferenceIdeal.Read.val_main_cst_2 Cert.ReferenceIdeal.Read.val_main_v16 Cert.ReferenceIdeal.Read.val_main_v14 Cert.ReferenceIdeal.Read.val_main_cst_1
  rfl

/-- The integer in-degree, read signed, is the reference's in-degree. -/
theorem degI_at (x1 : IVec S2x1600000 32) (n : Fin 100000) :
    ((((degI x1 (ix1 n)).toInt : ℝ)) : EReal) = Cert.ReferenceIdeal.Read.val_main_v17 (F := Ideal) x1 (ix1 n) := by
  have hz : (broadcastInDim S100000 ![] bcast_S_S100000 (constantI S_ 32 0#32) : IVec S100000 32)
      = fun _ => (0#32 : BitVec 32) := rfl
  have ho : (broadcastInDim S1600000 ![] bcast_S_S1600000 (constantI S_ 32 1#32) : IVec S1600000 32)
      = fun _ => (1#32 : BitVec 32) := rfl
  unfold degI
  rw [hz, ho, degree_eq]
  exact Cert.Lib.count_scatter_eq _ _ edges_lt (ix1 n)

/-- One over the count clamped below by one, for ANY array of integer counts, read at a node. -/
theorem recip_at (d : IVec S100000 32) (n : Fin 100000) :
    (Host.divf (broadcastInDim S100000 ![] bcast_S_S100000 (constant (F := Ideal) S_ .f32 0x3F800000#32))
        (maximumf (sitofp .f32 d)
          (broadcastInDim S100000 ![] bcast_S_S100000 (constant (F := Ideal) S_ .f32 0x3F800000#32)))) (ix1 n)
      = Ideal.div Cert.Sage.one (max ((((d (ix1 n)).toInt : ℝ)) : EReal) Cert.Sage.one) := rfl

/-- THE PER-NODE FACTOR at node `n` is one over the reference's in-degree clamped below by one. -/
theorem invOf_at (x1 : IVec S2x1600000 32) (n : Fin 100000) :
    invOf x1 (ix2 n (0 : Fin 1))
      = Ideal.div Cert.Sage.one (max (Cert.ReferenceIdeal.Read.val_main_v17 (F := Ideal) x1 (ix1 n)) Cert.Sage.one) := by
  unfold invOf
  refine (cast_col_apply _ _ n 0).trans ?_
  rw [recip_at, degI_at]

/-! ## The scorer's weights as two columns -/

/-- COLUMN 0 of the weight matrix at row `j` is weight `j`. -/
theorem wcatOf_at0 (x8 : FVec Ideal S1x128 .f32) (j : Fin 64) :
    wcatOf x8 (ix2 j (0 : Fin 2)) = x8 (ix2 (0 : Fin 1) (⟨j.val, by omega⟩ : Fin 128)) := by
  unfold wcatOf
  refine (concatenate_pair_apply_left (t := S64x2) (s₁ := S64x1) (s₂ := S64x1) _ _ _ _ (ix2 j (0 : Fin 2)) rfl
    (ix2 j (0 : Fin 1)) ?_).trans ?_
  · intro b
    match b with
    | ⟨0, _⟩ => rfl
    | ⟨1, _⟩ => rfl
  refine (broadcastInDim_apply _ _ _ (ix2 j (0 : Fin 1)) (ix1 j) (fun a => match a with
    | ⟨0, _⟩ => by show j.val = if (64 : Nat) = 1 then 0 else j.val; rw [if_neg (by decide)])).trans ?_
  refine (shapeCast_1a_a_apply _ _ j).trans ?_
  exact extractStridedSlice_apply _ _ _ (ix2 (0 : Fin 1) j) (ix2 (0 : Fin 1) (⟨j.val, by omega⟩ : Fin 128)) (fun a => match a with
    | ⟨0, _⟩ => rfl
    | ⟨1, _⟩ => by show j.val = 0 + j.val; omega)

/-- COLUMN 1 of the weight matrix at row `j` is weight `64 + j`. -/
theorem wcatOf_at1 (x8 : FVec Ideal S1x128 .f32) (j : Fin 64) :
    wcatOf x8 (ix2 j (1 : Fin 2)) = x8 (ix2 (0 : Fin 1) (⟨64 + j.val, by omega⟩ : Fin 128)) := by
  unfold wcatOf
  refine (concatenate_pair_apply_right (t := S64x2) (s₁ := S64x1) (s₂ := S64x1) _ _ _ _ (ix2 j (1 : Fin 2)) rfl rfl
    (ix2 j (0 : Fin 1)) ?_ ?_).trans ?_
  · intro b hb
    match b, hb with
    | ⟨0, _⟩, _ => rfl
    | ⟨1, _⟩, hb => exact absurd rfl hb
  · rfl
  refine (broadcastInDim_apply _ _ _ (ix2 j (0 : Fin 1)) (ix1 j) (fun a => match a with
    | ⟨0, _⟩ => by show j.val = if (64 : Nat) = 1 then 0 else j.val; rw [if_neg (by decide)])).trans ?_
  refine (shapeCast_1a_a_apply _ _ j).trans ?_
  exact extractStridedSlice_apply _ _ _ (ix2 (0 : Fin 1) j) (ix2 (0 : Fin 1) (⟨64 + j.val, by omega⟩ : Fin 128)) (fun a => match a with
    | ⟨0, _⟩ => rfl
    | ⟨1, _⟩ => rfl)

/-! ## The scores -/

/-- Elements of a vector of 100000 taken at the edges' integers, read at edge `e`. -/
theorem elems_at {α : Type} (x : S100000.Idx → α) (idx : IVec S1600000x1 32) (e : Fin 1600000) :
    Host.gather gather_S100000_S1600000x1_S1600000_n_0_n_n_0_1_1 x idx (ix1 e) = x (ix1 (Cert.Lib.clampRow 100000 (by decide) idx e)) :=
  Cert.Lib.gather_vec_apply (N := 100000) (E := 1600000) (by decide) gather_S100000_S1600000x1_S1600000_n_0_n_n_0_1_1.wf x idx e

/-- Column 0 of a two-column array, as a vector, at `r`. -/
theorem col0_at (S : FVec Ideal S100000x2 .f32) (r : Fin 100000) :
    shapeCast S100000 (extractStridedSlice S100000x1 ![0, 0] S slices_S100000x2_S100000x1_0_0) shapeCasts_S100000x1_S100000 (ix1 r)
      = S (ix2 r (0 : Fin 2)) := by
  refine (cast_uncol_apply _ _ r).trans ?_
  exact extractStridedSlice_apply _ _ _ (ix2 r (0 : Fin 1)) (ix2 r (0 : Fin 2)) (fun a => match a with
    | ⟨0, _⟩ => by show r.val = 0 + r.val; omega
    | ⟨1, _⟩ => rfl)

/-- Column 1 of a two-column array, as a vector, at `r`. -/
theorem col1_at (S : FVec Ideal S100000x2 .f32) (r : Fin 100000) :
    shapeCast S100000 (extractStridedSlice S100000x1 ![0, 1] S slices_S100000x2_S100000x1_0_1) shapeCasts_S100000x1_S100000 (ix1 r)
      = S (ix2 r (1 : Fin 2)) := by
  refine (cast_uncol_apply _ _ r).trans ?_
  exact extractStridedSlice_apply _ _ _ (ix2 r (0 : Fin 1)) (ix2 r (1 : Fin 2)) (fun a => match a with
    | ⟨0, _⟩ => by show r.val = 0 + r.val; omega
    | ⟨1, _⟩ => rfl)

/-- The scorer's bias, as a scalar broadcast over the edges, is the bias at every edge. -/
theorem bias_at (x9 : FVec Ideal S1 .f32) (e : Fin 1600000) :
    broadcastInDim S1600000 ![] bcast_S_S1600000 (shapeCast S_ x9 shapeCasts_S1_S_) (ix1 e) = x9 (ix1 (0 : Fin 1)) := by
  refine (broadcastInDim_apply _ _ _ (ix1 e) ix0 (fun a => a.elim0)).trans ?_
  exact cast_scalar_apply x9 _ ix0

/-- THE SCORE of edge `e`: column 0 of the projections at the edge's source row, plus column 1 at its destination
    row, plus the bias. -/
theorem outOf_at (S : FVec Ideal S100000x2 .f32) (x1 : IVec S2x1600000 32) (x9 : FVec Ideal S1 .f32) (e : Fin 1600000) :
    outOf S x1 x9 (ix1 e)
      = (S (ix2 (Cert.Lib.clampRow 100000 (by decide) (wrapIdx (srcOf x1)) e) (0 : Fin 2))
          + S (ix2 (Cert.Lib.clampRow 100000 (by decide) (wrapIdx (dstOf x1)) e) (1 : Fin 2)))
        + x9 (ix1 (0 : Fin 1)) := by
  unfold outOf
  show (Host.gather gather_S100000_S1600000x1_S1600000_n_0_n_n_0_1_1 _ (wrapIdx (srcOf x1)) (ix1 e) + Host.gather gather_S100000_S1600000x1_S1600000_n_0_n_n_0_1_1 _ (wrapIdx (dstOf x1)) (ix1 e))
      + broadcastInDim S1600000 ![] bcast_S_S1600000 (shapeCast S_ x9 shapeCasts_S1_S_) (ix1 e) = _
  rw [elems_at, elems_at, col0_at, col1_at, bias_at]

end Cert.KernelIdeal.TermsAt

end
-- ==== Proof.Bridge.lean ====
/-
  The two programs compute one function of the argument arrays.

  Both gather the same rows at the same edges and accumulate them at the same destinations, so the neighbour sums are
  the same arrays on both sides.  One program scales the neighbour sums by the reciprocal of the clamped in-degree,
  counted in integers; the other divides them by the clamped in-degree, counted in floats: the two counts are the same
  natural number, and dividing by a nonzero real is multiplying by its reciprocal, so each layer's hidden features agree
  index by index.  One program projects the hidden rows onto the two halves of the scorer's weights per node and adds,
  per edge, the first projection at the source and the second at the destination; the other gathers the two rows per
  edge, joins them and takes the 128-term product: a sum over 128 positions is the sum over the first 64 plus the sum
  over the last 64.
-/
import proofs.«155836_j7816840478969_2_alg».proof.Proof.KBlocks1
import proofs.«155836_j7816840478969_2_alg».proof.Proof.KTermsAt
import proofs.«155836_j7816840478969_2_alg».proof.Proof.RefSide
import proofs.«155836_j7816840478969_2_alg».proof.Proof.Spec

set_option maxRecDepth 16384

noncomputable section

open Idealize.ShloMosaic Idealize.ShloMosaic.ValueIdx

namespace Cert.Bridge

open Cert.KernelIdeal Cert.KernelIdeal.Terms Cert.KernelIdeal.TermsAt Cert.KernelIdeal.Blocks Cert.ReferenceIdeal.RefValue

variable (x0 : FVec Ideal S100000x64 .f32) (x1 : IVec S2x1600000 32) (x2 : FVec Ideal S64x64 .f32) (x3 : FVec Ideal S64 .f32)
  (x4 x5 : FVec Ideal S64x64 .f32) (x6 : FVec Ideal S64 .f32) (x7 : FVec Ideal S64x64 .f32) (x8 : FVec Ideal S1x128 .f32)
  (x9 : FVec Ideal S1 .f32)

/-- A hidden array built with the reciprocal factor is the layer that divides by the clamped in-degree. -/
theorem hidden_eq_layer (A X : S100000x64.Idx → EReal) (Wl : S64x64.Idx → EReal) (b : S64.Idx → EReal) (Wr : S64x64.Idx → EReal)
    (n : Fin 100000) (j : Fin 64) :
    hidden A X (invOf x1) Wl (biasRow b) Wr (ix2 n j)
      = Cert.Sage.layer (fun n k => A (ix2 n k)) (fun n k => X (ix2 n k)) (fun n => Cert.ReferenceIdeal.Read.val_main_v17 (F := Ideal) x1 (ix1 n))
          (fun j k => Wl (ix2 j k)) (fun j => b (ix1 j)) (fun j k => Wr (ix2 j k)) n j := by
  show Cert.Sage.layerMul (N := 100000) _ _ _ _ _ _ n j = _
  have hb : (fun j : Fin 64 => biasRow b (ix2 (0 : Fin 1) j)) = fun j => b (ix1 j) := funext fun j => biasRow_at b j
  rw [hb]
  exact congrFun (congrFun (Cert.Sage.layerMul_eq_layer (N := 100000) _ _ (fun n => Cert.ReferenceIdeal.Read.val_main_v17 (F := Ideal) x1 (ix1 n)) _ _ _ _
    (fun n => degree_nat x1 n) (fun n => invOf_at x1 n)) n) j

/-- THE FIRST HIDDEN ARRAY of the kernel is the reference's first hidden array. -/
theorem h1_eq :
    hidden (aggOf x0 x1) x0 (invOf x1) x2 (biasRow x3) x4 = Cert.ReferenceIdeal.Read.val_main_v31 (F := Ideal) x0 x1 x2 x3 x4 := by
  funext i
  obtain ⟨n, j, rfl⟩ : ∃ (n : Fin 100000) (j : Fin 64), i = ix2 n j := ⟨i 0, i 1, eq_ix2 i⟩
  rw [hidden_eq_layer, ref_layer1, agg_ref1]

/-- THE SECOND HIDDEN ARRAY, which the kernel never stores, is the reference's second hidden array. -/
theorem h2_eq (n : Fin 100000) (j : Fin 64) :
    hidden (aggOf (Cert.ReferenceIdeal.Read.val_main_v31 (F := Ideal) x0 x1 x2 x3 x4) x1) (Cert.ReferenceIdeal.Read.val_main_v31 (F := Ideal) x0 x1 x2 x3 x4) (invOf x1) x5
        (biasRow x6) x7 (ix2 n j)
      = Cert.ReferenceIdeal.Read.val_main_v59 (F := Ideal) x0 x1 x2 x3 x4 x5 x6 x7 (ix2 n j) := by
  rw [hidden_eq_layer, ref_layer2, agg_ref2, degree_again]

/-- THE SCORES of the kernel are the reference's. -/
theorem out_eq :
    outOf (projected (aggOf (hidden (aggOf x0 x1) x0 (invOf x1) x2 (biasRow x3) x4) x1)
        (hidden (aggOf x0 x1) x0 (invOf x1) x2 (biasRow x3) x4) (invOf x1) x5 (biasRow x6) x7 (wcatOf x8)) x1 x9
      = Cert.ReferenceIdeal.Read.val_main_v80 (F := Ideal) x0 x1 x2 x3 x4 x5 x6 x7 x8 x9 := by
  rw [h1_eq]
  funext i
  obtain ⟨e, rfl⟩ : ∃ e : Fin 1600000, i = ix1 e := ⟨i 0, eq_ix1 i⟩
  rw [outOf_at, ref_score, src_ref, dst_ref]
  have hp : ∀ (n : Fin 100000) (q : Fin 2),
      projected (aggOf (Cert.ReferenceIdeal.Read.val_main_v31 (F := Ideal) x0 x1 x2 x3 x4) x1) (Cert.ReferenceIdeal.Read.val_main_v31 (F := Ideal) x0 x1 x2 x3 x4) (invOf x1) x5
          (biasRow x6) x7 (wcatOf x8) (ix2 n q)
        = ∑ j : Fin 64, Cert.ReferenceIdeal.Read.val_main_v59 (F := Ideal) x0 x1 x2 x3 x4 x5 x6 x7 (ix2 n j) * wcatOf x8 (ix2 j q) := fun n q => by
    show ∑ j : Fin 64, hidden _ _ _ _ _ _ (ix2 n j) * wcatOf x8 (ix2 j q) = _
    refine Finset.sum_congr rfl fun j _ => ?_
    rw [h2_eq]
  rw [hp, hp]
  simp only [wcatOf_at0, wcatOf_at1]

end Cert.Bridge

end
-- ==== Proof.lean ====
/-
  The certificate: a two-layer mean-aggregation graph network with a linear edge scorer, computed by two node-blocked
  dense stages between host-side gathers and accumulating scatters, against its plain array-language reference, over
  the extended reals.

  The three frames: the two kernel programs' frames are generated; the reference's frame is its generated run with the
  result dropped.  Nothing was rewritten between the printed kernel and its idealization, so that conjunct is trivial.
  The value claim: the idealized kernel's run ends with the result buffer at the last host stretch's value of the two
  projection columns the second stage leaves; read back through the five segments this is a function of the argument
  arrays, and that function is the reference's result, index by index — the neighbour sums are the same arrays on both
  sides, the integer in-degree is the float in-degree, multiplying by the reciprocal of the clamped in-degree is dividing
  by it, and the 128-term product of the joined rows splits into the two 64-term projections.
-/
import proofs.«155836_j7816840478969_2_alg».proof.Defs
import proofs.«155836_j7816840478969_2_alg».proof.Proof.Gen.Kernel
import proofs.«155836_j7816840478969_2_alg».proof.Proof.Gen.Kernel.Skeleton
import proofs.«155836_j7816840478969_2_alg».proof.Proof.Gen.Kernel.Launch
import proofs.«155836_j7816840478969_2_alg».proof.Proof.Gen.Kernel.Points
import proofs.«155836_j7816840478969_2_alg».proof.Proof.Gen.Kernel.Frame
import proofs.«155836_j7816840478969_2_alg».proof.Proof.Gen.KernelIdeal
import proofs.«155836_j7816840478969_2_alg».proof.Proof.Gen.KernelIdeal.Skeleton
import proofs.«155836_j7816840478969_2_alg».proof.Proof.Gen.KernelIdeal.Launch
import proofs.«155836_j7816840478969_2_alg».proof.Proof.Gen.KernelIdeal.Points
import proofs.«155836_j7816840478969_2_alg».proof.Proof.Gen.KernelIdeal.Frame
import proofs.«155836_j7816840478969_2_alg».proof.Proof.Gen.ReferenceIdeal
import proofs.«155836_j7816840478969_2_alg».proof.Proof.Gen.Pre_finite_inputs
import proofs.«155836_j7816840478969_2_alg».proof.Proof.Gen.ReferenceIdeal.Run
import proofs.«155836_j7816840478969_2_alg».proof.Proof.Gen.ReferenceIdeal.Read
import proofs.«155836_j7816840478969_2_alg».proof.Proof.KRun
import proofs.«155836_j7816840478969_2_alg».proof.Proof.KHost2
import proofs.«155836_j7816840478969_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the reference's function of the (shared) argument arrays in their result. -/
theorem algebraic : Cert.algebraic_KernelIdeal_ReferenceIdeal := by
  intro m ρ m' ρ' _ hagree
  refine ⟨fun c => Cert.ReferenceIdeal.Read.val_main_v80 (F := Ideal)
      (Cert.KernelIdeal.Host.a0 m c) (Cert.KernelIdeal.Host.a1 m c) (Cert.KernelIdeal.Host.a2 m c) (Cert.KernelIdeal.Host.a3 m c)
      (Cert.KernelIdeal.Host.a4 m c) (Cert.KernelIdeal.Host.a5 m c) (Cert.KernelIdeal.Host.a6 m c) (Cert.KernelIdeal.Host.a7 m c)
      (Cert.KernelIdeal.Host.a8 m c) (Cert.KernelIdeal.Host.a9 m c), ?_, ?_⟩
  · refine (θ_run Cert.KernelIdeal.defs _ _).mono (fun r h c => ⟨(h c).1.trans ?_, (h c).2⟩)
      (Cert.KernelIdeal.Whole.run_result (F := Ideal) m ρ)
    refine (Cert.KernelIdeal.Host.w5_out m ρ c).trans ?_
    exact Cert.Bridge.out_eq _ _ _ _ _ _ _ _ _ _
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v80_eq]
    obtain ⟨e0, e1, e2, e3, e4, e5, e6, e7, e8, e9⟩ := hagree c
    rw [e0, e1, e2, e3, e4, e5, e6, e7, e8, e9]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
